-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x32x32 : Shape := ⟨4, ![8, 16, 32, 32]⟩
abbrev S64x144 : Shape := ⟨2, ![64, 144]⟩
abbrev S64 : Shape := ⟨1, ![64]⟩
abbrev S_ : Shape := ⟨0, ![]⟩

class Facts : Prop where
  bcast_S_S8x16x32x32 : S_.BroadcastsInDim S8x16x32x32 (![] : Fin 0 → Fin S8x16x32x32.rank)
  reducesTo_S8x16x32x32_S_d0_1_2_3 : S8x16x32x32.ReducesTo [0, 1, 2, 3] S_
  h_S_ : 0 < S_.numel
  bcast_S_S64x144 : S_.BroadcastsInDim S64x144 (![] : Fin 0 → Fin S64x144.rank)
  reducesTo_S64x144_S_d0_1 : S64x144.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x16x32x32 .f32) (main_arg1 : FVec F S64x144 .f32) (main_arg2 : FVec F S64 .f32) : IVec S_ 1 :=
  let main_v0 : FVec F S8x16x32x32 .f32 := Host.absf main_arg0
  let main_cst : FVec F S_ .f32 := constant S_ .f32 0x7F800000#32
  let main_v1 : FVec F S8x16x32x32 .f32 := broadcastInDim S8x16x32x32 ![] bcast_S_S8x16x32x32 main_cst
  let main_v2 : IVec S8x16x32x32 1 := cmpf .olt main_v0 main_v1
  let main_c : IVec S_ 1 := constantI S_ 1 1#1
  let main_v3 : IVec S_ 1 := (fun x v => Host.reduce IntOp.andi x v reducesTo_S8x16x32x32_S_d0_1_2_3 h_S_) main_v2 main_c
  let main_v4 : FVec F S64x144 .f32 := Host.absf main_arg1
  let main_cst_0 : FVec F S_ .f32 := constant S_ .f32 0x7F800000#32
  let main_v5 : FVec F S64x144 .f32 := broadcastInDim S64x144 ![] bcast_S_S64x144 main_cst_0
  let main_v6 : IVec S64x144 1 := cmpf .olt main_v4 main_v5
  let main_c_1 : IVec S_ 1 := constantI S_ 1 1#1
  let main_v7 : IVec S_ 1 := (fun x v => Host.reduce IntOp.andi x v reducesTo_S64x144_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x16x32x32 : Shape := ⟨4, ![8, 16, 32, 32]⟩
abbrev S64x144 : Shape := ⟨2, ![64, 144]⟩
abbrev S64 : Shape := ⟨1, ![64]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S144x64 : Shape := ⟨2, ![144, 64]⟩
abbrev S64x1 : Shape := ⟨2, ![64, 1]⟩
abbrev S8x64x1024 : Shape := ⟨3, ![8, 64, 1024]⟩
abbrev S1x144x512 : Shape := ⟨3, ![1, 144, 512]⟩
abbrev S1x64x512 : Shape := ⟨3, ![1, 64, 512]⟩
abbrev S64x512 : Shape := ⟨2, ![64, 512]⟩
abbrev S16x64 : Shape := ⟨2, ![16, 64]⟩
abbrev S1x16x512 : Shape := ⟨3, ![1, 16, 512]⟩
abbrev S16x512 : Shape := ⟨2, ![16, 512]⟩
abbrev S16x64x1 : Shape := ⟨3, ![16, 64, 1]⟩
abbrev S16x1x512 : Shape := ⟨3, ![16, 1, 512]⟩
abbrev S16x64x512 : Shape := ⟨3, ![16, 64, 512]⟩
abbrev S8x64x32x32 : Shape := ⟨4, ![8, 64, 32, 32]⟩

abbrev nBuf : Space → Nat
  | .hbm => 30
  | .vmem => 6
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S8x16x34x34, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x1x32x32, .f32⟩
  | .hbm, ⟨24, _⟩ => ⟨S8x16x9x32x32, .f32⟩
  | .hbm, ⟨25, _⟩ => ⟨S8x144x1024, .f32⟩
  | .hbm, ⟨26, _⟩ => ⟨S144x64, .f32⟩
  | .hbm, ⟨27, _⟩ => ⟨S64x1, .f32⟩
  | .hbm, ⟨28, _⟩ => ⟨S8x64x1024, .f32⟩
  | .hbm, ⟨29, _⟩ => ⟨S8x64x32x32, .f32⟩
  | .local _ .vmem, ⟨0, _⟩ => ⟨S1x144x512, .f32⟩
  | .local _ .vmem, ⟨1, _⟩ => ⟨S1x144x512, .f32⟩
  | .local _ .vmem, ⟨2, _⟩ => ⟨S144x64, .f32⟩
  | .local _ .vmem, ⟨3, _⟩ => ⟨S64x1, .f32⟩
  | .local _ .vmem, ⟨4, _⟩ => ⟨S1x64x512, .f32⟩
  | .local _ .vmem, ⟨5, _⟩ => ⟨S1x64x512, .f32⟩
  | _, _ => ⟨S8x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x144x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S144x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  transposes_S64x144_S144x64_1_0 : S64x144.Transposes [1, 0] S144x64
  shapeCasts_S64_S64x1 : S64.ShapeCasts S64x1
  inb_S144x64_S16x64_0_0 : ∀ a, (![0, 0] : Fin 2 → Nat) a + S16x64.size a ≤ S144x64.size a
  h_S16x64 : 0 < S16x64.numel
  shapeCasts_S16x64_S16x64 : S16x64.ShapeCasts S16x64
  inb_S1x144x512_S1x16x512_0_0_0 : ∀ a, (![0, 0, 0] : Fin 3 → Nat) a + S1x16x512.size a ≤ S1x144x512.size a
  h_S1x16x512 : 0 < S1x16x512.numel
  shapeCasts_S1x16x512_S16x512 : S1x16x512.ShapeCasts S16x512
  shapeCasts_S16x64_S16x64x1 : S16x64.ShapeCasts S16x64x1
  shapeCasts_S16x512_S16x1x512 : S16x512.ShapeCasts S16x1x512
  broadcasts_S16x64x1_S16x64x512 : S16x64x1.Broadcasts S16x64x512
  broadcasts_S16x1x512_S16x64x512 : S16x1x512.Broadcasts S16x64x512
  reduces_S16x64x512_S64x512 : S16x64x512.Reduces [0] S64x512
  inb_S144x64_S16x64_16_0 : ∀ a, (![16, 0] : Fin 2 → Nat) a + S16x64.size a ≤ S144x64.size a
  inb_S1x144x512_S1x16x512_0_16_0 : ∀ a, (![0, 16, 0] : Fin 3 → Nat) a + S1x16x512.size a ≤ S1x144x512.size a
  inb_S144x64_S16x64_32_0 : ∀ a, (![32, 0] : Fin 2 → Nat) a + S16x64.size a ≤ S144x64.size a
  inb_S1x144x512_S1x16x512_0_32_0 : ∀ a, (![0, 32, 0] : Fin 3 → Nat) a + S1x16x512.size a ≤ S1x144x512.size a
  inb_S144x64_S16x64_48_0 : ∀ a, (![48, 0] : Fin 2 → Nat) a + S16x64.size a ≤ S144x64.size a
  inb_S1x144x512_S1x16x512_0_48_0 : ∀ a, (![0, 48, 0] : Fin 3 → Nat) a + S1x16x512.size a ≤ S1x144x512.size a
  inb_S144x64_S16x64_64_0 : ∀ a, (![64, 0] : Fin 2 → Nat) a + S16x64.size a ≤ S144x64.size a
  inb_S1x144x512_S1x16x512_0_64_0 : ∀ a, (![0, 64, 0] : Fin 3 → Nat) a + S1x16x512.size a ≤ S1x144x512.size a
  inb_S144x64_S16x64_80_0 : ∀ a, (![80, 0] : Fin 2 → Nat) a + S16x64.size a ≤ S144x64.size a
  inb_S1x144x512_S1x16x512_0_80_0 : ∀ a, (![0, 80, 0] : Fin 3 → Nat) a + S1x16x512.size a ≤ S1x144x512.size a
  inb_S144x64_S16x64_96_0 : ∀ a, (![96, 0] : Fin 2 → Nat) a + S16x64.size a ≤ S144x64.size a
  inb_S1x144x512_S1x16x512_0_96_0 : ∀ a, (![0, 96, 0] : Fin 3 → Nat) a + S1x16x512.size a ≤ S1x144x512.size a
  inb_S144x64_S16x64_112_0 : ∀ a, (![112, 0] : Fin 2 → Nat) a + S16x64.size a ≤ S144x64.size a
  inb_S1x144x512_S1x16x512_0_112_0 : ∀ a, (![0, 112, 0] : Fin 3 → Nat) a + S1x16x512.size a ≤ S1x144x512.size a
  inb_S144x64_S16x64_128_0 : ∀ a, (![128, 0] : Fin 2 → Nat) a + S16x64.size a ≤ S144x64.size a
  inb_S1x144x512_S1x16x512_0_128_0 : ∀ a, (![0, 128, 0] : Fin 3 → Nat) a + S1x16x512.size a ≤ S1x144x512.size a
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  shapeCasts_S8x64x1024_S8x64x32x32 : S8x64x1024.ShapeCasts S8x64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x144x512.size a ≤ S8x144x1024.size a
  hwx0_0 : ∀ i : grid0.Coords, EltTy.bits .f32 = 32 ∨ (Rect.block (s := S8x144x1024) S1x144x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S144x64.size a ≤ S144x64.size a
  hwx0_1 : ∀ i : grid0.Coords, EltTy.bits .f32 = 32 ∨ (Rect.block (s := S144x64) S144x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S8x64x1024.size a
  hwx0_3 : ∀ i : grid0.Coords, EltTy.bits .f32 = 32 ∨ (Rect.block (s := S8x64x1024) S1x64x512.size (cc0_transform_3 i) (hinb0_3 i)).WholeWords (EltTy.packing .f32)

variable [Facts₀]

abbrev win0_0 : Pipeline.Window sig grid0 :=
  Pipeline.Window.ofSpec (Memref.whole main_v20) S1x144x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S144x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x32x32 : Shape := ⟨4, ![8, 16, 32, 32]⟩
abbrev S64x144 : Shape := ⟨2, ![64, 144]⟩
abbrev S64 : Shape := ⟨1, ![64]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S8x1x144x1024 : Shape := ⟨4, ![8, 1, 144, 1024]⟩
abbrev S1x64x144x1 : Shape := ⟨4, ![1, 64, 144, 1]⟩
abbrev S8x64x144x1024 : Shape := ⟨4, ![8, 64, 144, 1024]⟩
abbrev S8x64x1024 : Shape := ⟨3, ![8, 64, 1024]⟩
abbrev S1x64x1 : Shape := ⟨3, ![1, 64, 1]⟩
abbrev S8x64x32x32 : Shape := ⟨4, ![8, 64, 32, 32]⟩

abbrev nBuf : Space → Nat
  | .hbm => 38
  | .vmem => 0
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S8x16x34x34, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x1x32x32, .f32⟩
  | .hbm, ⟨24, _⟩ => ⟨S8x16x9x32x32, .f32⟩
  | .hbm, ⟨25, _⟩ => ⟨S8x144x1024, .f32⟩
  | .hbm, ⟨26, _⟩ => ⟨S8x1x144x1024, .f32⟩
  | .hbm, ⟨27, _⟩ => ⟨S1x64x144x1, .f32⟩
  | .hbm, ⟨28, _⟩ => ⟨S8x64x144x1024, .f32⟩
  | .hbm, ⟨29, _⟩ => ⟨S8x64x144x1024, .f32⟩
  | .hbm, ⟨30, _⟩ => ⟨S8x64x144x1024, .f32⟩
  | .hbm, ⟨31, _⟩ => ⟨S8x64x144x1024, .f32⟩
  | .hbm, ⟨32, _⟩ => ⟨S_, .f32⟩
  | .hbm, ⟨33, _⟩ => ⟨S8x64x1024, .f32⟩
  | .hbm, ⟨34, _⟩ => ⟨S1x64x1, .f32⟩
  | .hbm, ⟨35, _⟩ => ⟨S8x64x1024, .f32⟩
  | .hbm, ⟨36, _⟩ => ⟨S8x64x1024, .f32⟩
  | .hbm, ⟨37, _⟩ => ⟨S8x64x32x32, .f32⟩
  | _, _ => ⟨S8x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  bcast_S8x144x1024_S8x1x144x1024_0_2_3 : S8x144x1024.BroadcastsInDim S8x1x144x1024 (![0, 2, 3] : Fin 3 → Fin S8x1x144x1024.rank)
  bcast_S64x144_S1x64x144x1_1_2 : S64x144.BroadcastsInDim S1x64x144x1 (![1, 2] : Fin 2 → Fin S1x64x144x1.rank)
  bcast_S8x1x144x1024_S8x64x144x1024_0_1_2_3 : S8x1x144x1024.BroadcastsInDim S8x64x144x1024 (![0, 1, 2, 3] : Fin 4 → Fin S8x64x144x1024.rank)
  bcast_S1x64x144x1_S8x64x144x1024_0_1_2_3 : S1x64x144x1.BroadcastsInDim S8x64x144x1024 (![0, 1, 2, 3] : Fin 4 → Fin S8x64x144x1024.rank)
  reducesTo_S8x64x144x1024_S8x64x1024_d2 : S8x64x144x1024.ReducesTo [2] S8x64x1024
  bcast_S64_S1x64x1_1 : S64.BroadcastsInDim S1x64x1 (![1] : Fin 1 → Fin S1x64x1.rank)
  bcast_S1x64x1_S8x64x1024_0_1_2 : S1x64x1.BroadcastsInDim S8x64x1024 (![0, 1, 2] : Fin 3 → Fin S8x64x1024.rank)
  shapeCasts_S8x64x1024_S8x64x32x32 : S8x64x1024.ShapeCasts S8x64x32x32

variable [Facts₀]

class Facts : Prop extends Facts₀ where

variable [Facts]
-- ==== Proof.AroundK.lean ====
/-
  The kernel's program, as printed (at the word-level instance it is read at), around its one pallas_call.

  @main is twenty-five host operations, the pallas_call, and one host reshape of the call's result. The
  host operations before the call build the patch matrix cols[n, f, l] of x (x padded by one zero on each
  side of both image axes; its nine 32×32 windows shifted by (i, j), i, j < 3, stacked along a new axis
  after the channel axis; the stack flattened to [8, 144, 1024]), the transposed weight [144, 64] and the
  bias as a column [64, 1]. None of them writes an argument array, nor does the reshape after the call.

  Here: the contents each buffer has when the call is entered (`entryVal`, `entry`), @main as "those
  operations, the call, the reshape" (`main_around`), the three facts the library asks of the operation after
  the call, each argument array unchanged up to the call and after the reshape, the block of each window at
  a grid point (`blockAt`), each input window's staging buffer holding that block at every point, and the
  frame's postcondition from the run's (`frame_from`). Everything is stated at any float instance.
-/
import proofs.«153703_j944892805269_2_alg».proof.Proof.Gen.Kernel.Launch
import proofs.«153703_j944892805269_2_alg».proof.Proof.Gen.Kernel.Points
import Idealize.ShloMosaic.Lib.Pipeline.FrameBody
import Idealize.ShloMosaic.Lib.Pipeline.FrameSuffix

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the call is entered -/

/-- Core `c`'s buffer contents after the host operations before the call, as a valuation. -/
abbrev entryVal (c : Dev nD) : Valuation τ sig (Elt F) :=
  StableHlo.after (List.flatten [hostOps0, hostOps0_1, hostOps0_2]) (fun b => m (c, b))

/-- The same, read at a TensorCore reference. -/
abbrev entry (c : Dev nD) (b : Ref sig .tc) : Buf (Elt F) ((c : Thread nD τ).loc b) := entryVal m c (Proc.devRef .tc b)

/-- No host operation allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main runs the host operations before the call, then the call CONTINUED BY the reshape after it. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨fresh0, fresh0_1, fresh0_2⟩) main_chain

/-! ## The reshape after the call -/

/-- It touches only unscoped TensorCore buffers: the call's arrays and the buffers that bypass the call. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop

/-- It writes its own result buffer, which is no array of the call. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written -/

section Args

/-- The write sets of the operations before the call, one at a time. -/
local macro "not_written_before" : tactic => `(tactic|
  (simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
   repeat' apply And.intro
   all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (List.forall_iff_forall_mem.mp (by not_written_before))
theorem entry_arg1 (c : Dev nD) : entry m c main_arg1 = m ((c : Thread nD τ).loc main_arg1) :=
  StableHlo.after_of_forall_not_mem (b := Proc.devRef .tc main_arg1) _ _ (List.forall_iff_forall_mem.mp (by not_written_before))
theorem entry_arg2 (c : Dev nD) : entry m c main_arg2 = m ((c : Thread nD τ).loc main_arg2) :=
  StableHlo.after_of_forall_not_mem (b := Proc.devRef .tc main_arg2) _ _ (List.forall_iff_forall_mem.mp (by not_written_before))

variable (dats : (p : Fin 1) → (c : Dev nD) → Dat τ (Elt F) Unit ℕ (UR sig nD τ) ℕ (cfgs p) c)

/-- After the reshape an argument array (no array of the call, not the reshape's result) is as the call found it. -/
theorem exit_of_entry (c : Dev nD) (b : Ref sig .tc) (hb : b ≠ main_v24) (ha : ∀ w, Pipeline.arrRef spec0 w ≠ b) :
    Pipeline.afterTail₀ cfgs dats 0 (entryVal m) [hostOps1] c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hb)),
    Pipeline.withArrays_of_ne _ c (entryVal m c) _ b ha]

theorem exit_arg0 (c : Dev nD) : Pipeline.afterTail₀ cfgs dats 0 (entryVal m) [hostOps1] c main_arg0 = m ((c : Thread nD τ).loc main_arg0) :=
  (exit_of_entry m dats c main_arg0 (by decide) (by decide)).trans (entry_arg0 m c)
theorem exit_arg1 (c : Dev nD) : Pipeline.afterTail₀ cfgs dats 0 (entryVal m) [hostOps1] c main_arg1 = m ((c : Thread nD τ).loc main_arg1) :=
  (exit_of_entry m dats c main_arg1 (by decide) (by decide)).trans (entry_arg1 m c)
theorem exit_arg2 (c : Dev nD) : Pipeline.afterTail₀ cfgs dats 0 (entryVal m) [hostOps1] c main_arg2 = m ((c : Thread nD τ).loc main_arg2) :=
  (exit_of_entry m dats c main_arg2 (by decide) (by decide)).trans (entry_arg2 m c)

end Args

/-! ## The windows' blocks -/

/-- Window `w`'s block at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

section Staged

variable {c : Dev nD} (dat : Dat τ (Elt F) Unit ℕ (UR sig nD τ) ℕ cfg0 c)

/-- An input window's staging buffer holds the window's block at every point, whether the point fetches it or
    not (a point that does not fetch has the block index of the point before), for any proof data whose array is
    the entry contents and whose body leaves the block in place. The three input windows: -/
theorem staged0 (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1 (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2 (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

end Staged

/-! ## The frame from a run -/

/-- A run ending with every array of the call as the proof data computes and every other unscoped buffer as the
    reshape leaves it ends with the three argument arrays as launched: none is an array of the call or a result of a
    host operation. -/
theorem frame_from (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c)⟩) h

end Cert.Kernel.Hand

end
-- ==== Proof.TileK.lean ====
/-
  What one call of the kernel body computes, as a function of the three input blocks.

  At a grid point the body holds a block x0 : [1, 144, 512] of the patch matrix (144 patch entries for each of
  512 output positions), the whole transposed weight x1 : [144, 64] and the bias column x2 : [64, 1]. It walks the
  144 patch entries in nine chunks of sixteen: chunk k reads rows 16k … 16k+15 of x1 and of x0, forms
  |x1[f, o] − x0[0, f, l]| over the chunk, takes the maximum over the chunk's sixteen rows, and folds it into a
  running maximum that starts at −∞. The bias is added to the final maximum and the [64, 512] result is stored
  over the whole output block.

  `wRows k` / `cRows k` are the rectangles the chunk's two loads read, `tileVal` the stored value (the generated
  payloads `k0_pay1` … `k0_pay4` applied to the nineteen loads) and `tileOut` what the output block holds after the
  one covering store. At any float instance.
-/
import proofs.«153703_j944892805269_2_alg».proof.Proof.Gen.Kernel.Skeleton
import Idealize.ShloMosaic.Lib.Pipeline.FrameBody

noncomputable section

namespace Cert.Kernel.Hand

open Cert.Kernel.Gen
open Idealize.ShloMosaic Idealize.SL.Sem

variable {F : FTy → Type} [FloatOps F]

/-! ## The rectangles the body reads and writes -/

abbrev wRows0 : Rect S144x64 := Rect.unit (s := S144x64) ![0, 0] S16x64.size inb_S144x64_S16x64_0_0
abbrev wRows1 : Rect S144x64 := Rect.unit (s := S144x64) ![16, 0] S16x64.size inb_S144x64_S16x64_16_0
abbrev wRows2 : Rect S144x64 := Rect.unit (s := S144x64) ![32, 0] S16x64.size inb_S144x64_S16x64_32_0
abbrev wRows3 : Rect S144x64 := Rect.unit (s := S144x64) ![48, 0] S16x64.size inb_S144x64_S16x64_48_0
abbrev wRows4 : Rect S144x64 := Rect.unit (s := S144x64) ![64, 0] S16x64.size inb_S144x64_S16x64_64_0
abbrev wRows5 : Rect S144x64 := Rect.unit (s := S144x64) ![80, 0] S16x64.size inb_S144x64_S16x64_80_0
abbrev wRows6 : Rect S144x64 := Rect.unit (s := S144x64) ![96, 0] S16x64.size inb_S144x64_S16x64_96_0
abbrev wRows7 : Rect S144x64 := Rect.unit (s := S144x64) ![112, 0] S16x64.size inb_S144x64_S16x64_112_0
abbrev wRows8 : Rect S144x64 := Rect.unit (s := S144x64) ![128, 0] S16x64.size inb_S144x64_S16x64_128_0
abbrev cRows0 : Rect S1x144x512 := Rect.unit (s := S1x144x512) ![0, 0, 0] S1x16x512.size inb_S1x144x512_S1x16x512_0_0_0
abbrev cRows1 : Rect S1x144x512 := Rect.unit (s := S1x144x512) ![0, 16, 0] S1x16x512.size inb_S1x144x512_S1x16x512_0_16_0
abbrev cRows2 : Rect S1x144x512 := Rect.unit (s := S1x144x512) ![0, 32, 0] S1x16x512.size inb_S1x144x512_S1x16x512_0_32_0
abbrev cRows3 : Rect S1x144x512 := Rect.unit (s := S1x144x512) ![0, 48, 0] S1x16x512.size inb_S1x144x512_S1x16x512_0_48_0
abbrev cRows4 : Rect S1x144x512 := Rect.unit (s := S1x144x512) ![0, 64, 0] S1x16x512.size inb_S1x144x512_S1x16x512_0_64_0
abbrev cRows5 : Rect S1x144x512 := Rect.unit (s := S1x144x512) ![0, 80, 0] S1x16x512.size inb_S1x144x512_S1x16x512_0_80_0
abbrev cRows6 : Rect S1x144x512 := Rect.unit (s := S1x144x512) ![0, 96, 0] S1x16x512.size inb_S1x144x512_S1x16x512_0_96_0
abbrev cRows7 : Rect S1x144x512 := Rect.unit (s := S1x144x512) ![0, 112, 0] S1x16x512.size inb_S1x144x512_S1x16x512_0_112_0
abbrev cRows8 : Rect S1x144x512 := Rect.unit (s := S1x144x512) ![0, 128, 0] S1x16x512.size inb_S1x144x512_S1x16x512_0_128_0
abbrev biasAll : Rect S64x1 := Rect.unit (s := S64x1) ![0, 0] S64x1.size inb_S64x1_S64x1_0_0
abbrev outAll : Rect S1x64x512 := Rect.unit (s := S1x64x512) ![0, 0, 0] S1x64x512.size inb_S1x64x512_S1x64x512_0_0_0

/-! ## The stored value -/

/-- The value the body stores, from the three input blocks: the running maximum over the nine chunks plus the bias. -/
def tileVal (x0 : Vec F S1x144x512 .f32) (x1 : Vec F S144x64 .f32) (x2 : Vec F S64x1 .f32) : FVec F S1x64x512 .f32 :=
  k0_pay4
    (k0_pay2
      (k0_pay1 (View.ld x1 wRows0) (View.ld x0 cRows0) (View.ld x1 wRows1) (View.ld x0 cRows1) (View.ld x1 wRows2) (View.ld x0 cRows2))
      (View.ld x1 wRows3) (View.ld x0 cRows3) (View.ld x1 wRows4) (View.ld x0 cRows4) (View.ld x1 wRows5) (View.ld x0 cRows5))
    (k0_pay3 (View.ld x1 wRows6)) (View.ld x0 cRows6) (View.ld x1 wRows7) (View.ld x0 cRows7) (View.ld x1 wRows8) (View.ld x0 cRows8)
    (View.ld x2 biasAll)

/-- The output block after the body: its one store, over the whole block. -/
def tileOut (x0 : Vec F S1x144x512 .f32) (x1 : Vec F S144x64 .f32) (x2 : Vec F S64x1 .f32) : Vec F S1x64x512 .f32 :=
  View.canon [⟨outAll, tileVal x0 x1 x2⟩]

/-- The store covers the block. -/
theorem tileOut_cover (p : Vec F S1x64x512 .f32) (y : S1x64x512.Idx) :
    ∃ pc ∈ ([⟨outAll, p⟩] : List (View.Piece (Elt F) S1x64x512 .f32)), y ∈ pc.1.set :=
  View.cover_of_tiled [⟨outAll, p⟩] S1x64x512.size (by rfl) y

end Cert.Kernel.Hand

end
-- ==== Proof.BodyK.lean ====
/-
  The kernel body's triple: run on whole staging buffers holding the three input blocks (and anything in the
  output's), it terminates without a fault, leaves the inputs' buffers as they were and the output's holding
  `tileOut` of the inputs. Its nineteen loads read literal rectangles inside their buffers and its one store
  covers the output block; the load of the output block before the store reads whatever is there and its value is
  not used. At any float instance.
-/
import proofs.«153703_j944892805269_2_alg».proof.Proof.TileK
import proofs.«153703_j944892805269_2_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem tile_triple (c : Dev nD) (E : Set ℕ) (i : grid0.Coords)
    (arg2 : Memref sig .tc .vmem S1x144x512 .f32) (harg2 : arg2.IsWhole) (arg3 : Memref sig .tc .vmem S144x64 .f32) (harg3 : arg3.IsWhole)
    (arg4 : Memref sig .tc .vmem S64x1 .f32) (harg4 : arg4.IsWhole) (arg5 : Memref sig .tc .vmem S1x64x512 .f32) (harg5 : arg5.IsWhole)
    (x0 : Vec F S1x144x512 .f32) (x1 : Vec F S144x64 .f32) (x2 : Vec F S64x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (tileOut x0 x1 x2)) -∗ K ⟨⟩))
      ⊢ wp frame (wpE (defs₀ (F := F)) Variants.none c none) E (cc0__dist_kernel i arg2 harg2 arg3 harg3 arg4 harg4 arg5 harg5) K := by
  simp only [cc0__dist_kernel_eq_skeleton]; unfold cc0__dist_kernel_skel
  simp only [k0_part3_eq_skeleton]; unfold k0_part3_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

end Cert.Kernel.Hand

end
-- ==== Proof.FrameK.lean ====
/-
  The kernel's run and frame, for the program as printed.

  The proof data of the one pallas_call on a core: its four arrays as the call finds them; after the body at grid
  point t the three input windows' staging buffers still hold their blocks and the output window's holds
  `tileOut` of those blocks; nothing else is touched. With the body's triple this is the library's body obligation
  at every point, and the library's run around the call then gives: every weakly fair execution of @main
  terminates without a fault, each array of the call ends as the proof data computes (the output array as the
  blocks written back), and every other buffer as the reshape after the call leaves it — in particular the three
  argument arrays unchanged, which is the frame. At any float instance.
-/
import proofs.«153703_j944892805269_2_alg».proof.Proof.AroundK
import proofs.«153703_j944892805269_2_alg».proof.Proof.BodyK

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The call's proof data on core `c`. -/
def callData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => tileOut (blockAt m c 0 t) (blockAt m c 1 t) (blockAt m c 2 t)
  Φ _ := Pipeline.ΦA spec0 c
  q _ := fullShare
  owed _ := 0

theorem callData_A (c : Dev nD) (w : Fin cfg0.W) : (callData m 0 c).A w = entry m c (Pipeline.arrRef spec0 w) := by
  dsimp only [callData]

theorem after_in0 (c : Dev nD) (t : Fin cfg0.N) : (callData m 0 c).after 0 t = blockAt m c 0 t := by dsimp only [callData]
theorem after_in1 (c : Dev nD) (t : Fin cfg0.N) : (callData m 0 c).after 1 t = blockAt m c 1 t := by dsimp only [callData]
theorem after_in2 (c : Dev nD) (t : Fin cfg0.N) : (callData m 0 c).after 2 t = blockAt m c 2 t := by dsimp only [callData]
theorem after_out (c : Dev nD) (t : Fin cfg0.N) :
    (callData m 0 c).after 3 t = tileOut (blockAt m c 0 t) (blockAt m c 1 t) (blockAt m c 2 t) := by dsimp only [callData]

theorem before_in0 (c : Dev nD) (t : Fin cfg0.N) (d) : (callData m 0 c).before 0 t d = blockAt m c 0 t :=
  staged0 m (callData m 0 c) (callData_A m c 0) (after_in0 m c) t d
theorem before_in1 (c : Dev nD) (t : Fin cfg0.N) (d) : (callData m 0 c).before 1 t d = blockAt m c 1 t :=
  staged1 m (callData m 0 c) (callData_A m c 1) (after_in1 m c) t d
theorem before_in2 (c : Dev nD) (t : Fin cfg0.N) (d) : (callData m 0 c).before 2 t d = blockAt m c 2 t :=
  staged2 m (callData m 0 c) (callData_A m c 2) (after_in2 m c) t d

/-! ## The body at a grid point -/

/-- What the body is called with at point `t`: -/
def atEntry (c : Dev nD) (t : Fin cfg0.N) : sProp 𝕄 :=
  iprop((callData m 0 c).Φ t.castSucc ∗ (callData m 0 c).owesAt () t.castSucc
    ∗ (∃ d, owns (c : Thread nD τ) (st0_0 t) fullShare ((callData m 0 c).before 0 t d))
    ∗ (∃ d, owns (c : Thread nD τ) (st0_1 t) fullShare ((callData m 0 c).before 1 t d))
    ∗ (∃ d, owns (c : Thread nD τ) (st0_2 t) fullShare ((callData m 0 c).before 2 t d))
    ∗ (∃ d, owns (c : Thread nD τ) (st0_3 t) fullShare ((callData m 0 c).before 3 t d)))

/-- and what it returns. -/
def atExit (c : Dev nD) (t : Fin cfg0.N) : sProp 𝕄 :=
  iprop((callData m 0 c).Φ t.succ ∗ (callData m 0 c).owesAt () t.succ
    ∗ owns (c : Thread nD τ) (st0_0 t) fullShare ((callData m 0 c).after 0 t)
    ∗ owns (c : Thread nD τ) (st0_1 t) fullShare ((callData m 0 c).after 1 t)
    ∗ owns (c : Thread nD τ) (st0_2 t) fullShare ((callData m 0 c).after 2 t)
    ∗ owns (c : Thread nD τ) (st0_3 t) fullShare ((callData m 0 c).after 3 t))

/-- The inputs' staging buffers hold their blocks, so the body's triple applies; the rest passes through unread. -/
theorem body_at (c : Dev nD) (t : Fin cfg0.N) :
    atEntry m c t ⊢ wp frame (wpE (defs₀ (F := F)) Variants.none c none) Set.univ (bodyAt0 t) (fun _ => atExit m c t) := by
  unfold atEntry atExit bodyAt0
  simp only [before_in0, before_in1, before_in2]
  rw [show (callData m 0 c).Φ t.succ = (callData m 0 c).Φ t.castSucc from rfl,
    show (callData m 0 c).owesAt () t.succ = (callData m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (tile_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_all (c : Dev nD) : BodyObligation (callData (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault; each array of the call ends as the proof data
    computes and every other unscoped buffer as the reshape after the call leaves it. -/
theorem run_around : θ_run defs (onTc (τ := τ) (main (F := F))) (s₀ m ρ)
    (Pipeline.FramePost cfgs (callData m) 0 (Pipeline.afterTail₀ cfgs (callData m) 0 (entryVal m) [hostOps1])) :=
  Pipeline.θ_run_frame_around cfgs (callData m) (0 : Fin 1) launch0 defs₀ Variants.none m ρ main
    (hbody := fun c => (body_all m c).loose) (hshare := fun c => (callData m 0 c).share_full fun _ => rfl)
    (howed := fun _ _ => rfl) (V₀ := entryVal m) (opss := [hostOps1]) (hsub := after_sub) (hfresh := after_fresh) (hkeep := after_keeps)
    (hmain := main_around m Variants.none) (hA := callData_A m) (hΦ := fun _ _ => rfl)

/-- The frame: @main runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_from m ρ (callData m) (run_around m ρ)

end Cert.Kernel.Hand

end
-- ==== Proof.AroundI.lean ====
/-
  The idealized kernel's program around its one pallas_call.

  @main is twenty-five host operations, the pallas_call, and one host reshape of the call's result. The
  host operations before the call build the patch matrix cols[n, f, l] of x (x padded by one zero on each
  side of both image axes; its nine 32×32 windows shifted by (i, j), i, j < 3, stacked along a new axis
  after the channel axis; the stack flattened to [8, 144, 1024]), the transposed weight [144, 64] and the
  bias as a column [64, 1]. None of them writes an argument array, nor does the reshape after the call.

  Here: the contents each buffer has when the call is entered (`entryVal`, `entry`), @main as "those
  operations, the call, the reshape" (`main_around`), the three facts the library asks of the operation after
  the call, each argument array unchanged up to the call and after the reshape, the block of each window at
  a grid point (`blockAt`), each input window's staging buffer holding that block at every point, and the
  frame's postcondition from the run's (`frame_from`). Everything is stated at any float instance.
-/
import proofs.«153703_j944892805269_2_alg».proof.Proof.Gen.KernelIdeal.Launch
import proofs.«153703_j944892805269_2_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the call is entered -/

/-- Core `c`'s buffer contents after the host operations before the call, as a valuation. -/
abbrev entryVal (c : Dev nD) : Valuation τ sig (Elt F) :=
  StableHlo.after (List.flatten [hostOps0, hostOps0_1, hostOps0_2]) (fun b => m (c, b))

/-- The same, read at a TensorCore reference. -/
abbrev entry (c : Dev nD) (b : Ref sig .tc) : Buf (Elt F) ((c : Thread nD τ).loc b) := entryVal m c (Proc.devRef .tc b)

/-- No host operation allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main runs the host operations before the call, then the call CONTINUED BY the reshape after it. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨fresh0, fresh0_1, fresh0_2⟩) main_chain

/-! ## The reshape after the call -/

/-- It touches only unscoped TensorCore buffers: the call's arrays and the buffers that bypass the call. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop

/-- It writes its own result buffer, which is no array of the call. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written -/

section Args

/-- The write sets of the operations before the call, one at a time. -/
local macro "not_written_before" : tactic => `(tactic|
  (simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
   repeat' apply And.intro
   all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (List.forall_iff_forall_mem.mp (by not_written_before))
theorem entry_arg1 (c : Dev nD) : entry m c main_arg1 = m ((c : Thread nD τ).loc main_arg1) :=
  StableHlo.after_of_forall_not_mem (b := Proc.devRef .tc main_arg1) _ _ (List.forall_iff_forall_mem.mp (by not_written_before))
theorem entry_arg2 (c : Dev nD) : entry m c main_arg2 = m ((c : Thread nD τ).loc main_arg2) :=
  StableHlo.after_of_forall_not_mem (b := Proc.devRef .tc main_arg2) _ _ (List.forall_iff_forall_mem.mp (by not_written_before))

variable (dats : (p : Fin 1) → (c : Dev nD) → Dat τ (Elt F) Unit ℕ (UR sig nD τ) ℕ (cfgs p) c)

/-- After the reshape an argument array (no array of the call, not the reshape's result) is as the call found it. -/
theorem exit_of_entry (c : Dev nD) (b : Ref sig .tc) (hb : b ≠ main_v24) (ha : ∀ w, Pipeline.arrRef spec0 w ≠ b) :
    Pipeline.afterTail₀ cfgs dats 0 (entryVal m) [hostOps1] c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hb)),
    Pipeline.withArrays_of_ne _ c (entryVal m c) _ b ha]

theorem exit_arg0 (c : Dev nD) : Pipeline.afterTail₀ cfgs dats 0 (entryVal m) [hostOps1] c main_arg0 = m ((c : Thread nD τ).loc main_arg0) :=
  (exit_of_entry m dats c main_arg0 (by decide) (by decide)).trans (entry_arg0 m c)
theorem exit_arg1 (c : Dev nD) : Pipeline.afterTail₀ cfgs dats 0 (entryVal m) [hostOps1] c main_arg1 = m ((c : Thread nD τ).loc main_arg1) :=
  (exit_of_entry m dats c main_arg1 (by decide) (by decide)).trans (entry_arg1 m c)
theorem exit_arg2 (c : Dev nD) : Pipeline.afterTail₀ cfgs dats 0 (entryVal m) [hostOps1] c main_arg2 = m ((c : Thread nD τ).loc main_arg2) :=
  (exit_of_entry m dats c main_arg2 (by decide) (by decide)).trans (entry_arg2 m c)

end Args

/-! ## The windows' blocks -/

/-- Window `w`'s block at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

section Staged

variable {c : Dev nD} (dat : Dat τ (Elt F) Unit ℕ (UR sig nD τ) ℕ cfg0 c)

/-- An input window's staging buffer holds the window's block at every point, whether the point fetches it or
    not (a point that does not fetch has the block index of the point before), for any proof data whose array is
    the entry contents and whose body leaves the block in place. The three input windows: -/
theorem staged0 (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1 (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2 (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

end Staged

/-! ## The frame from a run -/

/-- A run ending with every array of the call as the proof data computes and every other unscoped buffer as the
    reshape leaves it ends with the three argument arrays as launched: none is an array of the call or a result of a
    host operation. -/
theorem frame_from (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c)⟩) h

end Cert.KernelIdeal.Hand

end
-- ==== Proof.TileI.lean ====
/-
  What one call of the kernel body computes, as a function of the three input blocks.

  At a grid point the body holds a block x0 : [1, 144, 512] of the patch matrix (144 patch entries for each of
  512 output positions), the whole transposed weight x1 : [144, 64] and the bias column x2 : [64, 1]. It walks the
  144 patch entries in nine chunks of sixteen: chunk k reads rows 16k … 16k+15 of x1 and of x0, forms
  |x1[f, o] − x0[0, f, l]| over the chunk, takes the maximum over the chunk's sixteen rows, and folds it into a
  running maximum that starts at −∞. The bias is added to the final maximum and the [64, 512] result is stored
  over the whole output block.

  `wRows k` / `cRows k` are the rectangles the chunk's two loads read, `tileVal` the stored value (the generated
  payloads `k0_pay1` … `k0_pay4` applied to the nineteen loads) and `tileOut` what the output block holds after the
  one covering store. At any float instance.
-/
import proofs.«153703_j944892805269_2_alg».proof.Proof.Gen.KernelIdeal.Skeleton
import Idealize.ShloMosaic.Lib.Pipeline.FrameBody

noncomputable section

namespace Cert.KernelIdeal.Hand

open Cert.KernelIdeal.Gen
open Idealize.ShloMosaic Idealize.SL.Sem

variable {F : FTy → Type} [FloatOps F]

/-! ## The rectangles the body reads and writes -/

abbrev wRows0 : Rect S144x64 := Rect.unit (s := S144x64) ![0, 0] S16x64.size inb_S144x64_S16x64_0_0
abbrev wRows1 : Rect S144x64 := Rect.unit (s := S144x64) ![16, 0] S16x64.size inb_S144x64_S16x64_16_0
abbrev wRows2 : Rect S144x64 := Rect.unit (s := S144x64) ![32, 0] S16x64.size inb_S144x64_S16x64_32_0
abbrev wRows3 : Rect S144x64 := Rect.unit (s := S144x64) ![48, 0] S16x64.size inb_S144x64_S16x64_48_0
abbrev wRows4 : Rect S144x64 := Rect.unit (s := S144x64) ![64, 0] S16x64.size inb_S144x64_S16x64_64_0
abbrev wRows5 : Rect S144x64 := Rect.unit (s := S144x64) ![80, 0] S16x64.size inb_S144x64_S16x64_80_0
abbrev wRows6 : Rect S144x64 := Rect.unit (s := S144x64) ![96, 0] S16x64.size inb_S144x64_S16x64_96_0
abbrev wRows7 : Rect S144x64 := Rect.unit (s := S144x64) ![112, 0] S16x64.size inb_S144x64_S16x64_112_0
abbrev wRows8 : Rect S144x64 := Rect.unit (s := S144x64) ![128, 0] S16x64.size inb_S144x64_S16x64_128_0
abbrev cRows0 : Rect S1x144x512 := Rect.unit (s := S1x144x512) ![0, 0, 0] S1x16x512.size inb_S1x144x512_S1x16x512_0_0_0
abbrev cRows1 : Rect S1x144x512 := Rect.unit (s := S1x144x512) ![0, 16, 0] S1x16x512.size inb_S1x144x512_S1x16x512_0_16_0
abbrev cRows2 : Rect S1x144x512 := Rect.unit (s := S1x144x512) ![0, 32, 0] S1x16x512.size inb_S1x144x512_S1x16x512_0_32_0
abbrev cRows3 : Rect S1x144x512 := Rect.unit (s := S1x144x512) ![0, 48, 0] S1x16x512.size inb_S1x144x512_S1x16x512_0_48_0
abbrev cRows4 : Rect S1x144x512 := Rect.unit (s := S1x144x512) ![0, 64, 0] S1x16x512.size inb_S1x144x512_S1x16x512_0_64_0
abbrev cRows5 : Rect S1x144x512 := Rect.unit (s := S1x144x512) ![0, 80, 0] S1x16x512.size inb_S1x144x512_S1x16x512_0_80_0
abbrev cRows6 : Rect S1x144x512 := Rect.unit (s := S1x144x512) ![0, 96, 0] S1x16x512.size inb_S1x144x512_S1x16x512_0_96_0
abbrev cRows7 : Rect S1x144x512 := Rect.unit (s := S1x144x512) ![0, 112, 0] S1x16x512.size inb_S1x144x512_S1x16x512_0_112_0
abbrev cRows8 : Rect S1x144x512 := Rect.unit (s := S1x144x512) ![0, 128, 0] S1x16x512.size inb_S1x144x512_S1x16x512_0_128_0
abbrev biasAll : Rect S64x1 := Rect.unit (s := S64x1) ![0, 0] S64x1.size inb_S64x1_S64x1_0_0
abbrev outAll : Rect S1x64x512 := Rect.unit (s := S1x64x512) ![0, 0, 0] S1x64x512.size inb_S1x64x512_S1x64x512_0_0_0

/-! ## The stored value -/

/-- The value the body stores, from the three input blocks: the running maximum over the nine chunks plus the bias. -/
def tileVal (x0 : Vec F S1x144x512 .f32) (x1 : Vec F S144x64 .f32) (x2 : Vec F S64x1 .f32) : FVec F S1x64x512 .f32 :=
  k0_pay4
    (k0_pay2
      (k0_pay1 (View.ld x1 wRows0) (View.ld x0 cRows0) (View.ld x1 wRows1) (View.ld x0 cRows1) (View.ld x1 wRows2) (View.ld x0 cRows2))
      (View.ld x1 wRows3) (View.ld x0 cRows3) (View.ld x1 wRows4) (View.ld x0 cRows4) (View.ld x1 wRows5) (View.ld x0 cRows5))
    (k0_pay3 (View.ld x1 wRows6)) (View.ld x0 cRows6) (View.ld x1 wRows7) (View.ld x0 cRows7) (View.ld x1 wRows8) (View.ld x0 cRows8)
    (View.ld x2 biasAll)

/-- The output block after the body: its one store, over the whole block. -/
def tileOut (x0 : Vec F S1x144x512 .f32) (x1 : Vec F S144x64 .f32) (x2 : Vec F S64x1 .f32) : Vec F S1x64x512 .f32 :=
  View.canon [⟨outAll, tileVal x0 x1 x2⟩]

/-- The store covers the block. -/
theorem tileOut_cover (p : Vec F S1x64x512 .f32) (y : S1x64x512.Idx) :
    ∃ pc ∈ ([⟨outAll, p⟩] : List (View.Piece (Elt F) S1x64x512 .f32)), y ∈ pc.1.set :=
  View.cover_of_tiled [⟨outAll, p⟩] S1x64x512.size (by rfl) y

end Cert.KernelIdeal.Hand

end
-- ==== Proof.BodyI.lean ====
/-
  The kernel body's triple: run on whole staging buffers holding the three input blocks (and anything in the
  output's), it terminates without a fault, leaves the inputs' buffers as they were and the output's holding
  `tileOut` of the inputs. Its nineteen loads read literal rectangles inside their buffers and its one store
  covers the output block; the load of the output block before the store reads whatever is there and its value is
  not used. At any float instance.
-/
import proofs.«153703_j944892805269_2_alg».proof.Proof.TileI
import proofs.«153703_j944892805269_2_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem tile_triple (c : Dev nD) (E : Set ℕ) (i : grid0.Coords)
    (arg2 : Memref sig .tc .vmem S1x144x512 .f32) (harg2 : arg2.IsWhole) (arg3 : Memref sig .tc .vmem S144x64 .f32) (harg3 : arg3.IsWhole)
    (arg4 : Memref sig .tc .vmem S64x1 .f32) (harg4 : arg4.IsWhole) (arg5 : Memref sig .tc .vmem S1x64x512 .f32) (harg5 : arg5.IsWhole)
    (x0 : Vec F S1x144x512 .f32) (x1 : Vec F S144x64 .f32) (x2 : Vec F S64x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (tileOut x0 x1 x2)) -∗ K ⟨⟩))
      ⊢ wp frame (wpE (defs₀ (F := F)) Variants.none c none) E (cc0__dist_kernel i arg2 harg2 arg3 harg3 arg4 harg4 arg5 harg5) K := by
  simp only [cc0__dist_kernel_eq_skeleton]; unfold cc0__dist_kernel_skel
  simp only [k0_part3_eq_skeleton]; unfold k0_part3_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

end Cert.KernelIdeal.Hand

end
-- ==== Proof.FrameI.lean ====
/-
  The idealized kernel's run and frame.

  The proof data of the one pallas_call on a core: its four arrays as the call finds them; after the body at grid
  point t the three input windows' staging buffers still hold their blocks and the output window's holds
  `tileOut` of those blocks; nothing else is touched. With the body's triple this is the library's body obligation
  at every point, and the library's run around the call then gives: every weakly fair execution of @main
  terminates without a fault, each array of the call ends as the proof data computes (the output array as the
  blocks written back), and every other buffer as the reshape after the call leaves it — in particular the three
  argument arrays unchanged, which is the frame. At any float instance.
-/
import proofs.«153703_j944892805269_2_alg».proof.Proof.AroundI
import proofs.«153703_j944892805269_2_alg».proof.Proof.BodyI

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The call's proof data on core `c`. -/
def callData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => tileOut (blockAt m c 0 t) (blockAt m c 1 t) (blockAt m c 2 t)
  Φ _ := Pipeline.ΦA spec0 c
  q _ := fullShare
  owed _ := 0

theorem callData_A (c : Dev nD) (w : Fin cfg0.W) : (callData m 0 c).A w = entry m c (Pipeline.arrRef spec0 w) := by
  dsimp only [callData]

theorem after_in0 (c : Dev nD) (t : Fin cfg0.N) : (callData m 0 c).after 0 t = blockAt m c 0 t := by dsimp only [callData]
theorem after_in1 (c : Dev nD) (t : Fin cfg0.N) : (callData m 0 c).after 1 t = blockAt m c 1 t := by dsimp only [callData]
theorem after_in2 (c : Dev nD) (t : Fin cfg0.N) : (callData m 0 c).after 2 t = blockAt m c 2 t := by dsimp only [callData]
theorem after_out (c : Dev nD) (t : Fin cfg0.N) :
    (callData m 0 c).after 3 t = tileOut (blockAt m c 0 t) (blockAt m c 1 t) (blockAt m c 2 t) := by dsimp only [callData]

theorem before_in0 (c : Dev nD) (t : Fin cfg0.N) (d) : (callData m 0 c).before 0 t d = blockAt m c 0 t :=
  staged0 m (callData m 0 c) (callData_A m c 0) (after_in0 m c) t d
theorem before_in1 (c : Dev nD) (t : Fin cfg0.N) (d) : (callData m 0 c).before 1 t d = blockAt m c 1 t :=
  staged1 m (callData m 0 c) (callData_A m c 1) (after_in1 m c) t d
theorem before_in2 (c : Dev nD) (t : Fin cfg0.N) (d) : (callData m 0 c).before 2 t d = blockAt m c 2 t :=
  staged2 m (callData m 0 c) (callData_A m c 2) (after_in2 m c) t d

/-! ## The body at a grid point -/

/-- What the body is called with at point `t`: -/
def atEntry (c : Dev nD) (t : Fin cfg0.N) : sProp 𝕄 :=
  iprop((callData m 0 c).Φ t.castSucc ∗ (callData m 0 c).owesAt () t.castSucc
    ∗ (∃ d, owns (c : Thread nD τ) (st0_0 t) fullShare ((callData m 0 c).before 0 t d))
    ∗ (∃ d, owns (c : Thread nD τ) (st0_1 t) fullShare ((callData m 0 c).before 1 t d))
    ∗ (∃ d, owns (c : Thread nD τ) (st0_2 t) fullShare ((callData m 0 c).before 2 t d))
    ∗ (∃ d, owns (c : Thread nD τ) (st0_3 t) fullShare ((callData m 0 c).before 3 t d)))

/-- and what it returns. -/
def atExit (c : Dev nD) (t : Fin cfg0.N) : sProp 𝕄 :=
  iprop((callData m 0 c).Φ t.succ ∗ (callData m 0 c).owesAt () t.succ
    ∗ owns (c : Thread nD τ) (st0_0 t) fullShare ((callData m 0 c).after 0 t)
    ∗ owns (c : Thread nD τ) (st0_1 t) fullShare ((callData m 0 c).after 1 t)
    ∗ owns (c : Thread nD τ) (st0_2 t) fullShare ((callData m 0 c).after 2 t)
    ∗ owns (c : Thread nD τ) (st0_3 t) fullShare ((callData m 0 c).after 3 t))

/-- The inputs' staging buffers hold their blocks, so the body's triple applies; the rest passes through unread. -/
theorem body_at (c : Dev nD) (t : Fin cfg0.N) :
    atEntry m c t ⊢ wp frame (wpE (defs₀ (F := F)) Variants.none c none) Set.univ (bodyAt0 t) (fun _ => atExit m c t) := by
  unfold atEntry atExit bodyAt0
  simp only [before_in0, before_in1, before_in2]
  rw [show (callData m 0 c).Φ t.succ = (callData m 0 c).Φ t.castSucc from rfl,
    show (callData m 0 c).owesAt () t.succ = (callData m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (tile_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_all (c : Dev nD) : BodyObligation (callData (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault; each array of the call ends as the proof data
    computes and every other unscoped buffer as the reshape after the call leaves it. -/
theorem run_around : θ_run defs (onTc (τ := τ) (main (F := F))) (s₀ m ρ)
    (Pipeline.FramePost cfgs (callData m) 0 (Pipeline.afterTail₀ cfgs (callData m) 0 (entryVal m) [hostOps1])) :=
  Pipeline.θ_run_frame_around cfgs (callData m) (0 : Fin 1) launch0 defs₀ Variants.none m ρ main
    (hbody := fun c => (body_all m c).loose) (hshare := fun c => (callData m 0 c).share_full fun _ => rfl)
    (howed := fun _ _ => rfl) (V₀ := entryVal m) (opss := [hostOps1]) (hsub := after_sub) (hfresh := after_fresh) (hkeep := after_keeps)
    (hmain := main_around m Variants.none) (hA := callData_A m) (hΦ := fun _ _ => rfl)

/-- The frame: @main runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_from m ρ (callData m) (run_around m ρ)

end Cert.KernelIdeal.Hand

end
-- ==== Proof.BlocksI.lean ====
/-
  The blocks of the pallas_call, at the ideal instance.

  The grid is 8 × 2: point t works on image n and on half lt of the 1024 output positions. Its block of the patch
  matrix is cols[n, 0:144, 512·lt : 512·lt + 512], its block of the output is out[n, 0:64, 512·lt : 512·lt + 512],
  and it sees the whole transposed weight and the whole bias column. These relations between the four printed
  index maps are decided once over the sixteen points; from them, an element of an input block is an element of
  its array at the corresponding place, and the sixteen output blocks cover the output array.
-/
import proofs.«153703_j944892805269_2_alg».proof.Proof.FrameI
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The printed index maps over the grid: the patch block moves with the output block on the image axis and on the
    position axis, the weight and the bias stay whole, and the output's block indices stay in their ranges. -/
theorem index_facts : ∀ t : Fin cfg0.N,
    win0_0.index t (0 : Fin 3) = win0_3.index t (0 : Fin 3) ∧ win0_0.index t (1 : Fin 3) = 0
    ∧ win0_0.index t (2 : Fin 3) = win0_3.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (0 : Fin 3) ≤ 7 ∧ win0_3.index t (2 : Fin 3) ≤ 1 :=
  (by decide +kernel : ∀ t : Fin grid0.N, _)

/-- Every (image, half) is some point's output block. -/
theorem index_onto : ∀ (q0 : Fin 8) (q2 : Fin 2), ∃ t : Fin cfg0.N, win0_3.index t = ![q0.val, 0, q2.val] :=
  (by decide +kernel : ∀ (q0 : Fin 8) (q2 : Fin 2), ∃ t : Fin grid0.N, win0_3.index t = ![q0.val, 0, q2.val])

/-! ## The input blocks, read at an element -/

/-- An element of point t's patch block is the patch matrix at image n(t), the same patch entry, and the block's
    position offset by 512·lt(t). -/
theorem block_cols (c : Dev nD) (t : Fin cfg0.N) (y : S1x144x512.Idx) (i : S8x144x1024.Idx)
    (h0 : (i 0).val = win0_3.index t (0 : Fin 3)) (h1 : (i 1).val = (y 1).val)
    (h2 : (i 2).val = win0_3.index t (2 : Fin 3) * 512 + (y 2).val) :
    blockAt m c 0 t y = (entry m c main_v20 : S8x144x1024.Idx → EReal) i := by
  obtain ⟨e0, e1, e2, -⟩ := index_facts t
  show (entry m c main_v20 : S8x144x1024.Idx → EReal) (((cfg0.win 0).blk t).view.emb y) = _
  refine congrArg _ (funext fun a => Fin.ext ?_)
  match a with
  | ⟨0, _⟩ =>
    show win0_0.index t (0 : Fin 3) * 1 + 1 * (y 0).val = (i 0).val
    have hy : (y 0).val < 1 := (y 0).isLt
    omega
  | ⟨1, _⟩ => show win0_0.index t (1 : Fin 3) * 144 + 1 * (y 1).val = (i 1).val; omega
  | ⟨2, _⟩ => show win0_0.index t (2 : Fin 3) * 512 + 1 * (y 2).val = (i 2).val; omega

/-- Every point's weight block is the whole transposed weight. -/
theorem block_wT (c : Dev nD) (t : Fin cfg0.N) (y : S144x64.Idx) :
    blockAt m c 1 t y = (entry m c main_v21 : S144x64.Idx → EReal) y := by
  obtain ⟨-, -, -, e3, e4, -⟩ := index_facts t
  show (entry m c main_v21 : S144x64.Idx → EReal) (((cfg0.win 1).blk t).view.emb y) = _
  refine congrArg _ (funext fun a => Fin.ext ?_)
  match a with
  | ⟨0, _⟩ => show win0_1.index t (0 : Fin 2) * 144 + 1 * (y 0).val = (y 0).val; omega
  | ⟨1, _⟩ => show win0_1.index t (1 : Fin 2) * 64 + 1 * (y 1).val = (y 1).val; omega

/-- Every point's bias block is the whole bias column. -/
theorem block_bcol (c : Dev nD) (t : Fin cfg0.N) (y : S64x1.Idx) :
    blockAt m c 2 t y = (entry m c main_v22 : S64x1.Idx → EReal) y := by
  obtain ⟨-, -, -, -, -, e5, e6, -⟩ := index_facts t
  show (entry m c main_v22 : S64x1.Idx → EReal) (((cfg0.win 2).blk t).view.emb y) = _
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 1 + 1 * (y 1).val = (y 1).val; omega

/-! ## The output blocks cover the output array -/

/-- An index of the output array is in point t's block iff each coordinate is in the block's range on its axis. -/
theorem mem_out_block (t : Fin cfg0.N) (i : S8x64x1024.Idx) :
    i ∈ ((cfg0.win 3).blk t).view.set ↔ ∀ a : Fin 3, win0_3.index t a * S1x64x512.size a ≤ (i a).val
      ∧ (i a).val < win0_3.index t a * S1x64x512.size a + S1x64x512.size a := by
  show i ∈ ((View.whole main_v23).slice (win0_3.rect t)).set ↔ _
  rw [View.set_slice_whole, Rect.mem_set_unit]
  exact Iff.rfl

/-- Index (n, o, l) is in the block of the point for image n and half l / 512, and every point writes its block back. -/
theorem out_covered (i : S8x64x1024.Idx) :
    ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 1024 := (i 2).isLt
  obtain ⟨t, ht⟩ := index_onto ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_out_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 512 ≤ (i 2).val ∧ (i 2).val < win0_3.index t (2 : Fin 3) * 512 + 512; omega

end Cert.KernelIdeal.HandValue

end
-- ==== Proof.EntryI.lean ====
/-
  What the pallas_call finds in its three input arrays, at the ideal instance.

  The host operations before the call are a function of the argument arrays alone: the patch matrix is the
  padding, windows, stack and flattening of x — the same chain of operations, in the same order, as the reference
  applies to x, so it is stated as the reference's own patch matrix of x and never opened —; the second input is
  the weight transposed, wT[f, o] = w[o, f]; the third is the bias as a column, bcol[o, 0] = b[o].
-/
import proofs.«153703_j944892805269_2_alg».proof.Proof.AroundI
import proofs.«153703_j944892805269_2_alg».proof.Proof.Gen.ReferenceIdeal.Read
import Idealize.ShloMosaic.Lib.Pipeline.Value
import Idealize.ShloMosaic.Lib.StableHlo.Run
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The patch matrix the call finds is the reference's patch matrix of x. -/
theorem entry_cols (c : Dev nD) :
    (entry m c main_v20 : S8x144x1024.Idx → EReal)
      = Cert.ReferenceIdeal.Read.val_main_v20 (F := Ideal) (m ((c : Thread nD τ).loc main_arg0)) := by
  dsimp only [entry, entryVal]
  simp only [hostOps0, hostOps0_1, hostOps0_2, List.flatten_cons, List.flatten_nil, List.append_nil, List.cons_append,
    List.nil_append]
  after_results
  all_goals rfl

/-- The second input is the transposed weight. -/
theorem entry_wT (c : Dev nD) :
    (entry m c main_v21 : S144x64.Idx → EReal)
      = transpose S144x64 [1, 0] (m ((c : Thread nD τ).loc main_arg1)) Gen.transposes_S64x144_S144x64_1_0 := by
  dsimp only [entry, entryVal]
  simp only [hostOps0, hostOps0_1, hostOps0_2, List.flatten_cons, List.flatten_nil, List.append_nil, List.cons_append,
    List.nil_append]
  after_results
  all_goals rfl

/-- The third input is the bias reshaped to a column. -/
theorem entry_bcol (c : Dev nD) :
    (entry m c main_v22 : S64x1.Idx → EReal)
      = shapeCast S64x1 (m ((c : Thread nD τ).loc main_arg2)) Gen.shapeCasts_S64_S64x1 := by
  dsimp only [entry, entryVal]
  simp only [hostOps0, hostOps0_1, hostOps0_2, List.flatten_cons, List.flatten_nil, List.append_nil, List.cons_append,
    List.nil_append]
  after_results
  all_goals rfl

/-- wT[f, o] = w[o, f]. -/
theorem entry_wT_apply (c : Dev nD) (f : Fin 144) (o : Fin 64) :
    (entry m c main_v21 : S144x64.Idx → EReal) (ix2 f o) = m ((c : Thread nD τ).loc main_arg1) (ix2 o f) := by
  rw [entry_wT]
  exact transpose_apply [1, 0] _ Gen.transposes_S64x144_S144x64_1_0 (ix2 f o) (ix2 o f)
    (fun b => by match b with | ⟨0, _⟩ => rfl | ⟨1, _⟩ => rfl)

/-- bcol[o, 0] = b[o]. -/
theorem entry_bcol_apply (c : Dev nD) (o : Fin 64) :
    (entry m c main_v22 : S64x1.Idx → EReal) (ix2 o (0 : Fin 1)) = m ((c : Thread nD τ).loc main_arg2) (ix1 o) := by
  rw [entry_bcol]
  refine shapeCast_apply _ Gen.shapeCasts_S64_S64x1 (ix2 o (0 : Fin 1)) (ix1 o) ?_
  rw [Shape.rowMajor_val_one, Shape.rowMajor_val_two]
  show o.val = o.val * 1 + 0
  omega

end Cert.KernelIdeal.HandValue

end
-- ==== Proof.LinfSpec.lean ====
/-
  The specification both programs meet: the L∞ distance of patches to weight rows, plus a bias.

  For a patch matrix cols[n, f, l] (8 images, 144 patch entries, 1024 output positions), weights w[o, f]
  (64 rows) and a bias b[o],

      out[n, o, h, v] = max over f < 144 of |cols[n, f, 32·h + v] − w[o, f]|  +  b[o],

  the maximum taken on the extended reals from −∞ (the bottom element ⊥), the absolute value read as the ideal
  instance reads it, max x (−x). Nothing here mentions a program: the arrays are functions on literal index shapes.
-/
import Idealize.ShloMosaic.PureOps.Ideal
import Idealize.ShloMosaic.Lib.ValueIdx

noncomputable section

namespace Cert.Linf

open Idealize.ShloMosaic Idealize.ShloMosaic.ValueIdx

/-- |a − b| on the extended reals, as `absf (subf a b)` reads at the ideal instance. -/
def gap (a b : EReal) : EReal := max (a - b) (-(a - b))

/-- The gap is symmetric, also at the infinities: where a − b is the junk value ⊥ (both +∞ or both −∞) so is b − a,
    and everywhere else −(a − b) = b − a. -/
theorem gap_comm (a b : EReal) : gap a b = gap b a := by
  unfold gap
  induction a using EReal.rec <;> induction b using EReal.rec <;>
    simp [max_comm, ← EReal.coe_sub, ← EReal.coe_neg]

/-- The bit pattern of −∞ reads as the bottom element. -/
theorem negInf_eq_bot : Ideal.ofBits .f32 0xFF800000#32 = (⊥ : EReal) := by
  simp [Ideal.ofBits, Ideal.ieee]

/-- The L∞ distance between patch (n, ·, l) and weight row o. -/
def dist (cols : FVec Ideal ⟨3, ![8, 144, 1024]⟩ .f32) (w : FVec Ideal ⟨2, ![64, 144]⟩ .f32)
    (n : Fin 8) (o : Fin 64) (l : Fin 1024) : EReal :=
  (Finset.univ : Finset (Fin 144)).fold max ⊥ fun f => gap (cols (ix3 n f l)) (w (ix2 o f))

/-- Output position (h, v) of the 32 × 32 image as a column of the patch matrix. -/
def pos (h v : Fin 32) : Fin 1024 := ⟨32 * h.val + v.val, by omega⟩

/-- The result at explicit coordinates. -/
def outAt (cols : FVec Ideal ⟨3, ![8, 144, 1024]⟩ .f32) (w : FVec Ideal ⟨2, ![64, 144]⟩ .f32) (b : FVec Ideal ⟨1, ![64]⟩ .f32)
    (n : Fin 8) (o : Fin 64) (l : Fin 1024) : EReal :=
  dist cols w n o l + b (ix1 o)

/-- The result array [8, 64, 32, 32]. -/
def out (cols : FVec Ideal ⟨3, ![8, 144, 1024]⟩ .f32) (w : FVec Ideal ⟨2, ![64, 144]⟩ .f32) (b : FVec Ideal ⟨1, ![64]⟩ .f32) :
    FVec Ideal ⟨4, ![8, 64, 32, 32]⟩ .f32 :=
  fun i => outAt cols w b (i 0) (i 1) (pos (i 2) (i 3))

end Cert.Linf

end
-- ==== Proof.FinalI.lean ====
/-
  The idealized kernel's result, as the specification of the argument arrays.

  Given what the body's stored value is at an element of a tile (`TileReads`: the maximum over all 144 patch entries
  of |wT[f, o] − patch[0, f, l]|, plus the bias column's entry), what grid point t writes back is the block
  of ONE function of the three staged arrays: flat[n, o, l] = max over f of |cols[n, f, l] − w[o, f]| + b[o], the two
  differences agreeing because the gap is symmetric. The sixteen blocks cover the output array, so after the
  call it IS that function; the reshape after the call reads position l = 32·h + v as (h, v), which makes the result
  the specification's `Cert.Linf.out` of the reference's patch matrix of x, the weight and the bias.
-/
import proofs.«153703_j944892805269_2_alg».proof.Proof.BlocksI
import proofs.«153703_j944892805269_2_alg».proof.Proof.EntryI
import proofs.«153703_j944892805269_2_alg».proof.Proof.LinfSpec

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)
open Idealize.ShloMosaic.ValueIdx

/-- The body's stored value at element (0, o, l) of a tile: the maximum over the 144 patch entries of the gap between
    the transposed weight's entry and the patch block's, from −∞, plus the bias column's entry. -/
def TileReads : Prop :=
  ∀ (x0 : Vec Ideal S1x144x512 .f32) (x1 : Vec Ideal S144x64 .f32) (x2 : Vec Ideal S64x1 .f32) (o : Fin 64) (l : Fin 512),
    tileVal (F := Ideal) x0 x1 x2 (ix3 (0 : Fin 1) o l)
      = (Finset.univ : Finset (Fin 144)).fold max ⊥ (fun f => Cert.Linf.gap (x1 (ix2 f o)) (x0 (ix3 (0 : Fin 1) f l)))
        + x2 (ix2 o (0 : Fin 1))

/-- The output array [8, 64, 1024] as one function of the patch matrix, the weight and the bias. -/
def flat (cols : S8x144x1024.Idx → EReal) (w : S64x144.Idx → EReal) (b : S64.Idx → EReal) : S8x64x1024.Idx → EReal :=
  fun i => Cert.Linf.outAt cols w b ⟨(i 0).val, (i 0).isLt⟩ ⟨(i 1).val, (i 1).isLt⟩ ⟨(i 2).val, (i 2).isLt⟩

theorem flat_at (cols : S8x144x1024.Idx → EReal) (w : S64x144.Idx → EReal) (b : S64.Idx → EReal) (i : S8x64x1024.Idx)
    (n : Fin 8) (o : Fin 64) (l : Fin 1024) (h0 : (i 0).val = n.val) (h1 : (i 1).val = o.val) (h2 : (i 2).val = l.val) :
    flat cols w b i = Cert.Linf.outAt cols w b n o l := by
  unfold flat
  have e0 : (⟨(i 0).val, (i 0).isLt⟩ : Fin 8) = n := Fin.ext h0
  have e1 : (⟨(i 1).val, (i 1).isLt⟩ : Fin 64) = o := Fin.ext h1
  have e2 : (⟨(i 2).val, (i 2).isLt⟩ : Fin 1024) = l := Fin.ext h2
  rw [e0, e1, e2]

variable (m : (ℓ : Loc nD τ sig) → Buf (Elt Ideal) ℓ) (ρ : Dev nD → PrngReg)

theorem zeros3 : (![0, 0, 0] : Fin 3 → Nat) = fun _ => 0 := funext fun a => by fin_cases a <;> rfl

/-- What point t writes back is its block of `flat` of the reference's patch matrix of x, the weight and the bias. -/
theorem flushed_out (htile : TileReads) (c : Dev nD) (t : Fin cfg0.N) :
    (callData m 0 c).flushed 3 t = ((cfg0.win 3).blk t).view.read (Elt Ideal)
      (flat (Cert.ReferenceIdeal.Read.val_main_v20 (F := Ideal) (m ((c : Thread nD τ).loc main_arg0)))
        (m ((c : Thread nD τ).loc main_arg1)) (m ((c : Thread nD τ).loc main_arg2))) := by
  show (cfg0.win 3).cut (grid0.coords t) ((callData m 0 c).after 3 t) = _
  rw [after_out]
  unfold tileOut
  rw [View.canon_unit_zero zeros3]
  obtain ⟨-, -, -, -, -, -, -, e7, e8, e9⟩ := index_facts t
  funext j
  have hj0 : (j 0).val < 1 := (j 0).isLt
  have hj1 : (j 1).val < 64 := (j 1).isLt
  have hj2 : (j 2).val < 512 := (j 2).isLt
  show tileVal (F := Ideal) (blockAt m c 0 t) (blockAt m c 1 t) (blockAt m c 2 t) j
    = flat _ _ _ (((cfg0.win 3).blk t).view.emb j)
  obtain ⟨o, l, rfl⟩ : ∃ (o : Fin 64) (l : Fin 512), j = ix3 (0 : Fin 1) o l :=
    ⟨⟨(j 1).val, hj1⟩, ⟨(j 2).val, hj2⟩, funext fun a => Fin.ext (by
      match a with
      | ⟨0, _⟩ => show (j 0).val = 0; omega
      | ⟨1, _⟩ => rfl
      | ⟨2, _⟩ => rfl)⟩
  refine (htile _ _ _ o l).trans ?_
  let n : Fin 8 := ⟨win0_3.index t (0 : Fin 3), by omega⟩
  let p : Fin 1024 := ⟨win0_3.index t (2 : Fin 3) * 512 + l.val, by have := l.isLt; omega⟩
  refine Eq.trans ?_ (flat_at _ _ _ (((cfg0.win 3).blk t).view.emb (ix3 (0 : Fin 1) o l)) n o p ?_ ?_ ?_).symm
  · unfold Cert.Linf.outAt Cert.Linf.dist
    refine congr (congrArg HAdd.hAdd (congrArg (fun g => (Finset.univ : Finset (Fin 144)).fold max ⊥ g) (funext fun f => ?_))) ?_
    · refine Eq.trans ?_ (Cert.Linf.gap_comm _ _)
      exact congr (congrArg Cert.Linf.gap ((block_wT m c t (ix2 f o)).trans (entry_wT_apply m c f o)))
        ((block_cols m c t (ix3 (0 : Fin 1) f l) (ix3 n f p) rfl rfl rfl).trans (congrFun (entry_cols m c) _))
    · exact (block_bcol m c t (ix2 o (0 : Fin 1))).trans (entry_bcol_apply m c o)
  · show win0_3.index t (0 : Fin 3) * 1 + 1 * 0 = win0_3.index t (0 : Fin 3); omega
  · show win0_3.index t (1 : Fin 3) * 64 + 1 * o.val = o.val; omega
  · show win0_3.index t (2 : Fin 3) * 512 + 1 * l.val = win0_3.index t (2 : Fin 3) * 512 + l.val; omega

/-- The output array after the call. -/
theorem out_array (htile : TileReads) (c : Dev nD) :
    (callData m 0 c).arrAt 3 cfg0.N
      = flat (Cert.ReferenceIdeal.Read.val_main_v20 (F := Ideal) (m ((c : Thread nD τ).loc main_arg0)))
          (m ((c : Thread nD τ).loc main_arg1)) (m ((c : Thread nD τ).loc main_arg2)) :=
  (callData m 0 c).arrAt_eq_of_cover 3 _ (fun t _ => flushed_out m htile c t) out_covered

/-- The reshape of `flat` to [8, 64, 32, 32] is the specification's result. -/
theorem reshape_flat (cols : S8x144x1024.Idx → EReal) (w : S64x144.Idx → EReal) (b : S64.Idx → EReal) :
    shapeCast S8x64x32x32 (flat cols w b) Gen.shapeCasts_S8x64x1024_S8x64x32x32 = Cert.Linf.out cols w b := by
  funext i
  have h0 : (i 0).val < 8 := (i 0).isLt
  have h1 : (i 1).val < 64 := (i 1).isLt
  have h2 : (i 2).val < 32 := (i 2).isLt
  have h3 : (i 3).val < 32 := (i 3).isLt
  let k : S8x64x1024.Idx := ix3 (⟨(i 0).val, h0⟩ : Fin 8) (⟨(i 1).val, h1⟩ : Fin 64) (⟨32 * (i 2).val + (i 3).val, by omega⟩ : Fin 1024)
  refine (shapeCast_apply (flat cols w b) Gen.shapeCasts_S8x64x1024_S8x64x32x32 i k ?_).trans ?_
  · rw [Shape.rowMajor_val_three, Shape.rowMajor_val_four]
    show ((i 0).val * 64 + (i 1).val) * 1024 + (32 * (i 2).val + (i 3).val) = (((i 0).val * 64 + (i 1).val) * 32 + (i 2).val) * 32 + (i 3).val
    omega
  · exact flat_at cols w b k ⟨(i 0).val, h0⟩ ⟨(i 1).val, h1⟩ (Cert.Linf.pos ⟨(i 2).val, h2⟩ ⟨(i 3).val, h3⟩) rfl rfl rfl

/-- The result buffer after the reshape that follows the call. -/
theorem exit_result (htile : TileReads) (c : Dev nD) :
    Pipeline.afterTail₀ cfgs (callData m) 0 (entryVal m) [hostOps1] c main_v24
      = Cert.Linf.out (Cert.ReferenceIdeal.Read.val_main_v20 (F := Ideal) (m ((c : Thread nD τ).loc main_arg0)))
          (m ((c : Thread nD τ).loc main_arg1)) (m ((c : Thread nD τ).loc main_arg2)) := by
  unfold Pipeline.afterTail₀
  show StableHlo.after hostOps1 _ (Proc.devRef .tc main_v24) = _
  after_results
  rw [Pipeline.withArrays_arr spec0 launch0.win.arr_inj c _ _ 3, out_array m htile c]
  exact reshape_flat _ _ _

/-- The idealized kernel's run: it terminates without a fault, its result is the specification of the reference's
    patch matrix of x, the weight and the bias, and its argument arrays are unchanged. -/
theorem run (htile : TileReads) : θ_run defs (onTc (τ := τ) (main (F := Ideal))) ⟨m, fun _ => 0, ρ⟩ fun r => ∀ c : Dev nD,
      r.2.mem ((c.tc : Thread nD τ).loc main_v24)
        = Cert.Linf.out (Cert.ReferenceIdeal.Read.val_main_v20 (F := Ideal) (m ((c : Thread nD τ).loc main_arg0)))
            (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v24 (Pipeline.mem_restRefs_of main_v24 (by decide) (by decide))).trans (exit_result m htile c),
     ((h c).2 main_arg0 (Pipeline.mem_restRefs_of main_arg0 (by decide) (by decide))).trans (exit_arg0 m (callData m) c),
     ((h c).2 main_arg1 (Pipeline.mem_restRefs_of main_arg1 (by decide) (by decide))).trans (exit_arg1 m (callData m) c),
     ((h c).2 main_arg2 (Pipeline.mem_restRefs_of main_arg2 (by decide) (by decide))).trans (exit_arg2 m (callData m) c)⟩)
    (run_around m ρ)

end Cert.KernelIdeal.HandValue

end
-- ==== Proof.TileValueI.lean ====
/-
  The kernel's tile at an index.

  One call of the body holds a patch block c : [1, 144, 512], the transposed weight w : [144, 64] and the bias column
  b : [64, 1], and stores the array `tileVal`. Read at (0, o, l) it is

      max over f < 144 of |w[f, o] − c[0, f, l]|  +  b[o, 0],

  the maximum taken on the extended reals from −∞ and |·| read as max x (−x) (`Cert.Linf.gap`).

  Three steps. (1) One chunk of sixteen rows: the two operands are broadcast to [16, 64, 512] (the weight rows along a new
  trailing axis, the patch rows along a new middle axis), subtracted, |·| taken and the maximum over the sixteen rows r
  formed from −∞; at (o, l) that is the maximum over r of |w[r, o] − c[0, r, l]| (`chunk_apply`). (2) A pure fact about
  the order on the extended reals: the maximum of 144 values is the nested maximum of the nine maxima over rows
  16k … 16k+15, since both are the least upper bound of the same values (`fold144`). (3) The stored value is the nine
  chunks, fed the loads of rows 16k … 16k+15, folded into a running maximum from −∞, plus the broadcast bias, with a
  leading unit axis added (`tileVal_eq`, by unfolding the generated payloads); a load through a unit-stride rectangle
  reads the block at offset + coordinate (`chunk_ld`, `bias_apply`), and (2) closes the count (`tileVal_apply`).
-/
import proofs.«153703_j944892805269_2_alg».proof.Proof.TileI
import proofs.«153703_j944892805269_2_alg».proof.Proof.LinfSpec
import Idealize.ShloMosaic.PureOps.Ideal.Laws
import Idealize.ShloMosaic.Lib.ValueLayout

noncomputable section

namespace Cert.KernelIdeal.TileValue

open Idealize.ShloMosaic Idealize.SL.Sem Idealize.ShloMosaic.ValueIdx Cert.KernelIdeal Cert.KernelIdeal.Gen

/-! ## One chunk: sixteen rows of the weight block against sixteen rows of the patch block -/

/-- The source index over (o, l) with row r inserted on the reduced axis is (r, o, l). -/
theorem lift_ix (h : S16x64x512.Reduces [0] S64x512) (o : Fin 64) (l : Fin 512) (r : Fin 16) :
    h.lift (ix2 o l) r = ix3 r o l := by
  funext c
  match c with
  | ⟨0, _⟩ => exact Fin.ext rfl
  | ⟨1, _⟩ => exact Fin.ext rfl
  | ⟨2, _⟩ => exact Fin.ext rfl

/-- The weight rows [16, 64], given a trailing unit axis and broadcast along it to [16, 64, 512], read w[r, o] at (r, o, l). -/
theorem wBroadcast_apply (w2 : FVec Ideal S16x64 .f32) (h3 : S16x64.ShapeCasts S16x64x1) (h5 : S16x64x1.Broadcasts S16x64x512)
    (r : Fin 16) (o : Fin 64) (l : Fin 512) :
    broadcastTo S16x64x512 (shapeCast S16x64x1 w2 h3) h5 (ix3 r o l) = w2 (ix2 r o) := by
  refine (broadcastTo_apply _ h5 (ix3 r o l) (ix3 r o (0 : Fin 1)) fun a => ?_).trans ?_
  · match a with
    | ⟨0, _⟩ => rfl
    | ⟨1, _⟩ => rfl
    | ⟨2, _⟩ => rfl
  · refine shapeCast_apply w2 h3 _ (ix2 r o) ?_
    rw [Shape.rowMajor_val_three, Shape.rowMajor_val_two]
    show r.val * 64 + o.val = (r.val * 64 + o.val) * 1 + 0
    omega

/-- The patch rows [1, 16, 512], squeezed to [16, 512], given a middle unit axis and broadcast along it to [16, 64, 512],
    read c[0, r, l] at (r, o, l). -/
theorem cBroadcast_apply (ck : FVec Ideal S1x16x512 .f32) (h2 : S1x16x512.ShapeCasts S16x512) (h4 : S16x512.ShapeCasts S16x1x512)
    (h6 : S16x1x512.Broadcasts S16x64x512) (r : Fin 16) (o : Fin 64) (l : Fin 512) :
    broadcastTo S16x64x512 (shapeCast S16x1x512 (shapeCast S16x512 ck h2) h4) h6 (ix3 r o l) = ck (ix3 (0 : Fin 1) r l) := by
  refine (broadcastTo_apply _ h6 (ix3 r o l) (ix3 r (0 : Fin 1) l) fun a => ?_).trans ?_
  · match a with
    | ⟨0, _⟩ => rfl
    | ⟨1, _⟩ => rfl
    | ⟨2, _⟩ => rfl
  · refine (shapeCast_apply _ h4 _ (ix2 r l) ?_).trans (shapeCast_1ab_ab_apply ck h2 r l)
    rw [Shape.rowMajor_val_three, Shape.rowMajor_val_two]
    show r.val * 512 + l.val = (r.val * 1 + 0) * 512 + l.val
    omega

/-- The running maximum's contribution of one chunk, as the body computes it from the chunk's weight rows (already
    viewed [16, 64]) and patch rows. -/
abbrev chunk (w2 : FVec Ideal S16x64 .f32) (ck : FVec Ideal S1x16x512 .f32) : FVec Ideal S64x512 .f32 :=
  multiReduction .maximumf [0] S64x512
    (absf (subf (broadcastTo S16x64x512 (shapeCast S16x64x1 w2 shapeCasts_S16x64_S16x64x1) broadcasts_S16x64x1_S16x64x512)
      (broadcastTo S16x64x512 (shapeCast S16x1x512 (shapeCast S16x512 ck shapeCasts_S1x16x512_S16x512) shapeCasts_S16x512_S16x1x512)
        broadcasts_S16x1x512_S16x64x512)))
    0xFF800000#32 reduces_S16x64x512_S64x512 (.inl rfl) rfl

/-- A chunk at (o, l): the maximum, from −∞, over its sixteen rows r of |w[r, o] − c[0, r, l]|. -/
theorem chunk_apply (w2 : FVec Ideal S16x64 .f32) (ck : FVec Ideal S1x16x512 .f32) (o : Fin 64) (l : Fin 512) :
    chunk w2 ck (ix2 o l)
      = (Finset.univ : Finset (Fin 16)).fold max ⊥ (fun r => Cert.Linf.gap (w2 (ix2 r o)) (ck (ix3 (0 : Fin 1) r l))) := by
  refine (Ideal.multiReduction_maximumf_single _ _ reduces_S16x64x512_S64x512 (.inl rfl) rfl (ix2 o l)).trans ?_
  show (Finset.univ : Finset (Fin 16)).fold max (Ideal.ofBits .f32 0xFF800000#32) _ = _
  rw [Cert.Linf.negInf_eq_bot]
  refine congrArg (fun f : Fin 16 → EReal => Finset.fold max ⊥ f Finset.univ) (funext fun (r : Fin 16) => ?_)
  show absf (subf _ _) (reduces_S16x64x512_S64x512.lift (ix2 o l) r) = _
  refine (congrArg _ (lift_ix reduces_S16x64x512_S64x512 o l r)).trans ?_
  show max (_ - _) (-(_ - _)) = _
  rw [wBroadcast_apply, cBroadcast_apply]
  rfl

/-! ## The maximum over 144 rows, taken sixteen rows at a time -/

/-- The maximum, from −∞, over rows 16k … 16k+15. -/
def blk (g : Fin 144 → EReal) (k : Fin 9) : EReal :=
  (Finset.univ : Finset (Fin 16)).fold max ⊥ fun r => g ⟨16 * k.val + r.val, by omega⟩

/-- The running maximum after the nine chunks, as the body nests it. -/
abbrev nest (g : Fin 144 → EReal) : EReal :=
  max (max (max (max (max (max (max (max (max (⊥) (blk g 0)) (blk g 1)) (blk g 2)) (blk g 3)) (blk g 4)) (blk g 5)) (blk g 6)) (blk g 7)) (blk g 8)

theorem blk_le_fold (g : Fin 144 → EReal) (k : Fin 9) : blk g k ≤ (Finset.univ : Finset (Fin 144)).fold max ⊥ g :=
  (Finset.fold_max_le _).2 ⟨bot_le, fun r _ => (Finset.le_fold_max _).2 (Or.inr ⟨_, Finset.mem_univ _, le_rfl⟩)⟩

theorem le_blk (g : Fin 144 → EReal) (f : Fin 144) : g f ≤ blk g ⟨f.val / 16, by omega⟩ :=
  (Finset.le_fold_max _).2 (Or.inr ⟨⟨f.val % 16, Nat.mod_lt _ (by omega)⟩, Finset.mem_univ _,
    le_of_eq (congrArg g (Fin.ext (by show f.val = 16 * (f.val / 16) + f.val % 16; omega)))⟩)

theorem blk_le_nest (g : Fin 144 → EReal) : ∀ k : Fin 9, blk g k ≤ nest g
  | ⟨0, _⟩ => le_max_of_le_left (le_max_of_le_left (le_max_of_le_left (le_max_of_le_left (le_max_of_le_left (le_max_of_le_left (le_max_of_le_left (le_max_of_le_left (le_max_right _ _))))))))
  | ⟨1, _⟩ => le_max_of_le_left (le_max_of_le_left (le_max_of_le_left (le_max_of_le_left (le_max_of_le_left (le_max_of_le_left (le_max_of_le_left (le_max_right _ _)))))))
  | ⟨2, _⟩ => le_max_of_le_left (le_max_of_le_left (le_max_of_le_left (le_max_of_le_left (le_max_of_le_left (le_max_of_le_left (le_max_right _ _))))))
  | ⟨3, _⟩ => le_max_of_le_left (le_max_of_le_left (le_max_of_le_left (le_max_of_le_left (le_max_of_le_left (le_max_right _ _)))))
  | ⟨4, _⟩ => le_max_of_le_left (le_max_of_le_left (le_max_of_le_left (le_max_of_le_left (le_max_right _ _))))
  | ⟨5, _⟩ => le_max_of_le_left (le_max_of_le_left (le_max_of_le_left (le_max_right _ _)))
  | ⟨6, _⟩ => le_max_of_le_left (le_max_of_le_left (le_max_right _ _))
  | ⟨7, _⟩ => le_max_of_le_left (le_max_right _ _)
  | ⟨8, _⟩ => le_max_right _ _

/-- Both sides are the least upper bound of the 144 values: every row lies in one of the nine chunks, and every chunk's
    rows are rows. -/
theorem fold144 (g : Fin 144 → EReal) : (Finset.univ : Finset (Fin 144)).fold max ⊥ g = nest g :=
  le_antisymm
    ((Finset.fold_max_le _).2 ⟨bot_le, fun f _ => (le_blk g f).trans (blk_le_nest g _)⟩)
    (max_le (max_le (max_le (max_le (max_le (max_le (max_le (max_le (max_le (bot_le) (blk_le_fold g 0)) (blk_le_fold g 1)) (blk_le_fold g 2)) (blk_le_fold g 3)) (blk_le_fold g 4)) (blk_le_fold g 5)) (blk_le_fold g 6)) (blk_le_fold g 7)) (blk_le_fold g 8))

/-! ## The stored value at an index -/

/-- |w[f, o] − c[0, f, l]| as a function of the patch entry f. -/
abbrev gapAt (x0 : Vec Ideal S1x144x512 .f32) (x1 : Vec Ideal S144x64 .f32) (o : Fin 64) (l : Fin 512) : Fin 144 → EReal :=
  fun f => Cert.Linf.gap (x1 (ix2 f o)) (x0 (ix3 (0 : Fin 1) f l))

/-- Chunk k, fed the loads of rows 16k … 16k+15 of the two blocks, is the maximum of the gaps over those rows: a load
    through a unit-stride rectangle reads the block at offset + coordinate. -/
theorem chunk_ld (x0 : Vec Ideal S1x144x512 .f32) (x1 : Vec Ideal S144x64 .f32) (o : Fin 64) (l : Fin 512) (k : Fin 9)
    (inbw : ∀ a, (![16 * k.val, 0] : Fin 2 → Nat) a + S16x64.size a ≤ S144x64.size a)
    (inbc : ∀ a, (![0, 16 * k.val, 0] : Fin 3 → Nat) a + S1x16x512.size a ≤ S1x144x512.size a)
    (h1 : S16x64.ShapeCasts S16x64) :
    chunk (shapeCast S16x64 (View.ld x1 (Rect.unit (s := S144x64) ![16 * k.val, 0] S16x64.size inbw)) h1)
        (View.ld x0 (Rect.unit (s := S1x144x512) ![0, 16 * k.val, 0] S1x16x512.size inbc)) (ix2 o l)
      = blk (gapAt x0 x1 o l) k := by
  refine (chunk_apply _ _ o l).trans ?_
  refine congrArg (fun f : Fin 16 → EReal => Finset.fold max ⊥ f Finset.univ) (funext fun (r : Fin 16) => ?_)
  refine congrArg₂ Cert.Linf.gap
    ((congrFun (shapeCast_self (s := S16x64) _ h1) (ix2 r o)).trans (congrArg x1 (funext fun a => ?_)))
    (congrArg x0 (funext fun a => ?_))
  · match a with
    | ⟨0, _⟩ => exact Fin.ext (by show 16 * k.val + 1 * r.val = 16 * k.val + r.val; omega)
    | ⟨1, _⟩ => exact Fin.ext (by show 0 + 1 * o.val = o.val; omega)
  · match a with
    | ⟨0, _⟩ => exact Fin.ext (by show 0 + 1 * 0 = 0; omega)
    | ⟨1, _⟩ => exact Fin.ext (by show 16 * k.val + 1 * r.val = 16 * k.val + r.val; omega)
    | ⟨2, _⟩ => exact Fin.ext (by show 0 + 1 * l.val = l.val; omega)

/-- The bias column [64, 1], loaded whole and broadcast along its unit axis to [64, 512], reads b[o, 0] at (o, l). -/
theorem bias_apply (x2 : Vec Ideal S64x1 .f32) (o : Fin 64) (l : Fin 512) :
    broadcastTo S64x512 (shapeCast S64x1 (View.ld x2 Hand.biasAll) shapeCasts_S64x1_S64x1) broadcasts_S64x1_S64x512 (ix2 o l)
      = x2 (ix2 o (0 : Fin 1)) := by
  refine (broadcastTo_apply _ broadcasts_S64x1_S64x512 (ix2 o l) (ix2 o (0 : Fin 1)) fun a => ?_).trans ?_
  · match a with
    | ⟨0, _⟩ => rfl
    | ⟨1, _⟩ => rfl
  · refine (congrFun (shapeCast_self (s := S64x1) _ shapeCasts_S64x1_S64x1) (ix2 o (0 : Fin 1))).trans ?_
    refine congrArg x2 (funext fun a => ?_)
    match a with
    | ⟨0, _⟩ => exact Fin.ext (by show 0 + 1 * o.val = o.val; omega)
    | ⟨1, _⟩ => exact Fin.ext (by show 0 + 1 * 0 = 0; omega)

/-- One step of the running maximum at an index. -/
theorem max_step (acc c : FVec Ideal S64x512 .f32) (i : S64x512.Idx) {a b : EReal} (ha : acc i = a) (hb : c i = b) :
    maximumf acc c i = max a b :=
  (maximumf_apply acc c i).trans (congrArg₂ max ha hb)

/-- The stored value with the generated payloads opened: nine chunks folded into a running maximum from −∞, the bias
    added, the result given a leading unit axis. -/
theorem tileVal_eq (x0 : Vec Ideal S1x144x512 .f32) (x1 : Vec Ideal S144x64 .f32) (x2 : Vec Ideal S64x1 .f32) :
    Hand.tileVal (F := Ideal) x0 x1 x2 =
      shapeCast S1x64x512 (addf
        (maximumf (maximumf (maximumf (maximumf (maximumf (maximumf (maximumf (maximumf (maximumf (broadcast S64x512 (Scalar.ofBits .f32 0xFF800000#32))
      (chunk (shapeCast S16x64 (View.ld x1 Hand.wRows0) shapeCasts_S16x64_S16x64) (View.ld x0 Hand.cRows0)))
      (chunk (shapeCast S16x64 (View.ld x1 Hand.wRows1) shapeCasts_S16x64_S16x64) (View.ld x0 Hand.cRows1)))
      (chunk (shapeCast S16x64 (View.ld x1 Hand.wRows2) shapeCasts_S16x64_S16x64) (View.ld x0 Hand.cRows2)))
      (chunk (shapeCast S16x64 (View.ld x1 Hand.wRows3) shapeCasts_S16x64_S16x64) (View.ld x0 Hand.cRows3)))
      (chunk (shapeCast S16x64 (View.ld x1 Hand.wRows4) shapeCasts_S16x64_S16x64) (View.ld x0 Hand.cRows4)))
      (chunk (shapeCast S16x64 (View.ld x1 Hand.wRows5) shapeCasts_S16x64_S16x64) (View.ld x0 Hand.cRows5)))
      (chunk (shapeCast S16x64 (View.ld x1 Hand.wRows6) shapeCasts_S16x64_S16x64) (View.ld x0 Hand.cRows6)))
      (chunk (shapeCast S16x64 (View.ld x1 Hand.wRows7) shapeCasts_S16x64_S16x64) (View.ld x0 Hand.cRows7)))
      (chunk (shapeCast S16x64 (View.ld x1 Hand.wRows8) shapeCasts_S16x64_S16x64) (View.ld x0 Hand.cRows8)))
        (broadcastTo S64x512 (shapeCast S64x1 (View.ld x2 Hand.biasAll) shapeCasts_S64x1_S64x1) broadcasts_S64x1_S64x512))
        shapeCasts_S64x512_S1x64x512 := rfl

/-- The stored value at (0, o, l): the maximum over the 144 patch entries f of |w[f, o] − c[0, f, l]|, from −∞, plus the
    bias b[o, 0]. -/
theorem tileVal_apply (x0 : Vec Ideal S1x144x512 .f32) (x1 : Vec Ideal S144x64 .f32) (x2 : Vec Ideal S64x1 .f32)
    (o : Fin 64) (l : Fin 512) :
    Cert.KernelIdeal.Hand.tileVal (F := Ideal) x0 x1 x2 (ix3 (0 : Fin 1) o l)
      = (Finset.univ : Finset (Fin 144)).fold max ⊥
          (fun f => Cert.Linf.gap (x1 (ix2 f o)) (x0 (ix3 (0 : Fin 1) f l))) + x2 (ix2 o (0 : Fin 1)) := by
  rw [tileVal_eq]
  refine (shapeCast_ab_1ab_apply _ shapeCasts_S64x512_S1x64x512 (0 : Fin 1) o l).trans ?_
  refine (addf_apply _ _ _).trans ?_
  refine congrArg₂ (fun a b : EReal => a + b) ?_ (bias_apply x2 o l)
  refine Eq.trans ?_ (fold144 (gapAt x0 x1 o l)).symm
  exact max_step _ _ _ (max_step _ _ _ (max_step _ _ _ (max_step _ _ _ (max_step _ _ _ (max_step _ _ _ (max_step _ _ _ (max_step _ _ _ (max_step _ _ _ (Cert.Linf.negInf_eq_bot)
      (chunk_ld x0 x1 o l 0 _ _ _))
      (chunk_ld x0 x1 o l 1 _ _ _))
      (chunk_ld x0 x1 o l 2 _ _ _))
      (chunk_ld x0 x1 o l 3 _ _ _))
      (chunk_ld x0 x1 o l 4 _ _ _))
      (chunk_ld x0 x1 o l 5 _ _ _))
      (chunk_ld x0 x1 o l 6 _ _ _))
      (chunk_ld x0 x1 o l 7 _ _ _))
      (chunk_ld x0 x1 o l 8 _ _ _)

end Cert.KernelIdeal.TileValue

end
-- ==== Proof.RefLinf.lean ====
/-
  The reference program computes the specification.

  After the patch matrix cols = unfold(x) of shape [8, 144, 1024] (the stage val_main_v20 x, which is never opened
  here), the reference broadcasts cols and the weights w to [8, 64, 144, 1024], subtracts, takes absolute values, reduces
  with a maximum from −∞ over the axis of the 144 patch entries, adds the broadcast bias, and reshapes [8, 64, 1024]
  to [8, 64, 32, 32]. Read at an index (n, o, h, v) this is

      max over f < 144 of |cols[n, f, 32·h + v] − w[o, f]|  +  b[o],

  which is Cert.Linf.out cols w b at that index. The proof reads each stage at an index from its operand at an index,
  the reduce as a fold over the coordinates of the dropped axis, and identifies the composed index maps with the
  literal indices of the specification.
-/
import proofs.«153703_j944892805269_2_alg».proof.Proof.Gen.ReferenceIdeal.Read
import proofs.«153703_j944892805269_2_alg».proof.Proof.LinfSpec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## The reduce over the 144 patch entries -/

/-- Dropping axis 2 of [8, 64, 144, 1024] leaves [8, 64, 1024]. -/
theorem reduces_d2 : S8x64x144x1024.Reduces [2] S8x64x1024 := by decide

/-- The result index (n, o, l) with coordinate k put back on the dropped axis is (n, o, k, l). -/
theorem lift_ix (n : Fin 8) (o : Fin 64) (l : Fin 1024) (k : Fin (S8x64x144x1024.size 2)) :
    reduces_d2.lift (ix3 n o l) k = ix4 n o (⟨k.val, k.isLt⟩ : Fin 144) l := by
  funext c; apply Fin.ext
  fin_cases c <;> rfl

/-- For any array g of shape [8, 64, 144, 1024]: the reduce with a maximum body from the constant −∞ over axis 2 is, at
    (n, o, l), the maximum from ⊥ of g (n, o, f, l) over f < 144. The maximum is commutative and associative, so the
    reduce is the fold over the dropped axis's coordinates; the initial value's one element is the bit pattern of −∞,
    which reads as ⊥. -/
theorem hostMax_at (g : FVec Ideal S8x64x144x1024 .f32) (n : Fin 8) (o : Fin 64) (l : Fin 1024) :
    Host.reduce FloatOps.maximumf g (constant S_ .f32 0xFF800000#32) reducesTo_S8x64x144x1024_S8x64x1024_d2 h_S_ (ix3 n o l)
      = (Finset.univ : Finset (Fin 144)).fold max ⊥ fun f => g (ix4 n o f l) := by
  rw [Host.reduce_eq_fold_single FloatOps.maximumf g _ reducesTo_S8x64x144x1024_S8x64x1024_d2 reduces_d2 h_S_]
  have hf : (g ∘ reduces_d2.lift (ix3 n o l)) = fun f : Fin 144 => g (ix4 n o f l) :=
    funext fun k => congrArg g (lift_ix n o l k)
  have e : Finset.fold max (Ideal.ofBits .f32 0xFF800000#32) (fun f : Fin 144 => g (ix4 n o f l)) Finset.univ
      = Finset.fold max (⊥ : EReal) (fun f : Fin 144 => g (ix4 n o f l)) Finset.univ := by
    rw [Cert.Linf.negInf_eq_bot]
  refine Eq.trans ?_ e
  exact congrArg (fun f => Finset.fold max (Ideal.ofBits .f32 0xFF800000#32) f (Finset.univ : Finset (Fin 144))) hf

/-- The reduced stage at (n, o, l): the maximum from ⊥ over f < 144 of the absolute differences at (n, o, f, l). -/
theorem v27_at (x : FVec Ideal S8x16x32x32 .f32) (w : FVec Ideal S64x144 .f32) (n : Fin 8) (o : Fin 64) (l : Fin 1024) :
    val_main_v27 (F := Ideal) x w (ix3 n o l)
      = (Finset.univ : Finset (Fin 144)).fold max ⊥ fun f => val_main_v26 (F := Ideal) x w (ix4 n o f l) := by
  unfold val_main_v27
  generalize val_main_v26 (F := Ideal) x w = g
  exact hostMax_at g n o l

/-! ## The summand: |cols[n, f, l] − w[o, f]| -/

/-- The two broadcasts of the patch matrix read (n, o, f, l) at (n, f, l): the output-channel axis is the new one. -/
theorem idx_cols (n : Fin 8) (o : Fin 64) (f : Fin 144) (l : Fin 1024) :
    idx_main_v21 (idx_main_v23 (ix4 n o f l)) = ix3 n f l := by
  funext a; apply Fin.ext
  fin_cases a <;> rfl

/-- The two broadcasts of the weights read (n, o, f, l) at (o, f): the image and position axes are the new ones. -/
theorem idx_w (n : Fin 8) (o : Fin 64) (f : Fin 144) (l : Fin 1024) :
    idx_main_v22 (idx_main_v24 (ix4 n o f l)) = ix2 o f := by
  funext a; apply Fin.ext
  fin_cases a <;> rfl

/-- The absolute difference at (n, o, f, l) is the gap between cols[n, f, l] and w[o, f]: the ideal absolute value of
    a − b is max (a − b) (−(a − b)) by definition. -/
theorem v26_at (x : FVec Ideal S8x16x32x32 .f32) (w : FVec Ideal S64x144 .f32) (n : Fin 8) (o : Fin 64) (f : Fin 144) (l : Fin 1024) :
    val_main_v26 (F := Ideal) x w (ix4 n o f l)
      = Cert.Linf.gap (val_main_v20 (F := Ideal) x (ix3 n f l)) (w (ix2 o f)) := by
  rw [val_main_v26_apply, val_main_v25_apply, val_main_v23_apply, val_main_v21_apply, val_main_v24_apply, val_main_v22_apply,
    idx_cols, idx_w]
  rfl

/-! ## The bias and the final reshape -/

/-- The two broadcasts of the bias read (n, o, l) at o. -/
theorem idx_b (n : Fin 8) (o : Fin 64) (l : Fin 1024) :
    idx_main_v28 (idx_main_v29 (ix3 n o l)) = ix1 o := by
  funext a; apply Fin.ext
  fin_cases a <;> rfl

/-- The reshape [8, 64, 1024] → [8, 64, 32, 32] reads (n, o, h, v) at (n, o, 32·h + v): the row-major position
    ((n·64 + o)·32 + h)·32 + v splits as (n·64 + o)·1024 + (32·h + v) with 32·h + v < 1024. -/
theorem idx_out (n : Fin 8) (o : Fin 64) (h v : Fin 32) :
    idx_main_v31 (ix4 n o h v) = ix3 n o (Cert.Linf.pos h v) := by
  funext a; apply Fin.ext
  have hn := n.isLt; have ho := o.isLt; have hh := h.isLt; have hv := v.isLt
  fin_cases a
  · show (((n.val * 64 + o.val) * 32 + h.val) * 32 + v.val) / 65536 = n.val; omega
  · show (((n.val * 64 + o.val) * 32 + h.val) * 32 + v.val) / 1024 % 64 = o.val; omega
  · show (((n.val * 64 + o.val) * 32 + h.val) * 32 + v.val) % 1024 = 32 * h.val + v.val; omega

/-! ## The reference's result at an index, and as an array -/

/-- At (n, o, h, v) the reference's result is the specification's value at (n, o, 32·h + v). -/
theorem ref_at (x : FVec Ideal S8x16x32x32 .f32) (w : FVec Ideal S64x144 .f32) (b : FVec Ideal S64 .f32)
    (n : Fin 8) (o : Fin 64) (h v : Fin 32) :
    val_main_v31 (F := Ideal) x w b (ix4 n o h v)
      = Cert.Linf.outAt (val_main_v20 (F := Ideal) x) w b n o (Cert.Linf.pos h v) := by
  rw [val_main_v31_apply, idx_out, val_main_v30_apply, v27_at, val_main_v29_apply, val_main_v28_apply, idx_b]
  have hg : (fun f : Fin 144 => val_main_v26 (F := Ideal) x w (ix4 n o f (Cert.Linf.pos h v)))
      = fun f : Fin 144 => Cert.Linf.gap (val_main_v20 (F := Ideal) x (ix3 n f (Cert.Linf.pos h v))) (w (ix2 o f)) :=
    funext fun f => v26_at x w n o f (Cert.Linf.pos h v)
  rw [hg]
  rfl

/-- The reference's result is the specification's array over the patch matrix the reference itself builds. -/
theorem ref_is_spec (x : FVec Ideal Cert.ReferenceIdeal.S8x16x32x32 .f32) (w : FVec Ideal Cert.ReferenceIdeal.S64x144 .f32)
    (b : FVec Ideal Cert.ReferenceIdeal.S64 .f32) :
    Cert.ReferenceIdeal.Read.val_main_v31 (F := Ideal) x w b
      = Cert.Linf.out (Cert.ReferenceIdeal.Read.val_main_v20 (F := Ideal) x) w b := by
  funext i
  refine (congrArg (val_main_v31 (F := Ideal) x w b) (eq_ix4 i)).trans ?_
  exact ref_at x w b (i 0) (i 1) (i 2) (i 3)

end Cert.ReferenceIdeal.RefValue

end
-- ==== Proof.lean ====
/-
  A distance "convolution": out[n, o, h, v] = max over the 144 patch entries f of |cols[n, f, 32·h + v] − w[o, f]| + b[o],
  where cols is the 3 × 3, padding-1 patch matrix of x (x padded by a ring of zeros, its nine shifted 32 × 32 windows
  stacked after the channel axis and flattened to [8, 144, 1024]).

  The kernel builds cols, the transposed weight and the bias column on the host, and on an 8 × 2 grid computes, for
  image n and one half of the 1024 positions, the running maximum of |wT[f, o] − cols[n, f, l]| over nine chunks of
  sixteen patch entries, starting from −∞, then adds the bias; the host reshapes [8, 64, 1024] to [8, 64, 32, 32].
  The reference builds the same cols by the same host operations, broadcasts cols and w against each other, takes
  |cols − w|, reduces by maximum over the patch axis from −∞, adds the bias and reshapes.

  On the extended reals the two agree exactly: a maximum over 144 entries is the maximum of the nine chunk maxima
  (both are the least upper bound, and −∞ is the bottom element), and |a − b| = |b − a| also where a − b is not a real
  number. Nothing in the argument needs the inputs to be finite.

  The three frames: each program terminates without a fault and leaves its argument arrays as launched — the two
  kernel programs by the pipeline's run around the one pallas_call (the body loads from and stores to whole staging
  buffers through literal rectangles), the reference by its run. `preserves` has no conjunct: idealizing rewrote nothing.
-/
import proofs.«153703_j944892805269_2_alg».proof.Defs
import proofs.«153703_j944892805269_2_alg».proof.Proof.Gen.Kernel
import proofs.«153703_j944892805269_2_alg».proof.Proof.Gen.Kernel.Skeleton
import proofs.«153703_j944892805269_2_alg».proof.Proof.Gen.Kernel.Launch
import proofs.«153703_j944892805269_2_alg».proof.Proof.Gen.Kernel.Points
import proofs.«153703_j944892805269_2_alg».proof.Proof.Gen.KernelIdeal
import proofs.«153703_j944892805269_2_alg».proof.Proof.Gen.KernelIdeal.Skeleton
import proofs.«153703_j944892805269_2_alg».proof.Proof.Gen.KernelIdeal.Launch
import proofs.«153703_j944892805269_2_alg».proof.Proof.Gen.KernelIdeal.Points
import proofs.«153703_j944892805269_2_alg».proof.Proof.Gen.ReferenceIdeal
import proofs.«153703_j944892805269_2_alg».proof.Proof.Gen.ReferenceIdeal.Run
import proofs.«153703_j944892805269_2_alg».proof.Proof.Gen.ReferenceIdeal.Read
import proofs.«153703_j944892805269_2_alg».proof.Proof.Gen.Pre_finite_inputs
import proofs.«153703_j944892805269_2_alg».proof.Proof.FrameK
import proofs.«153703_j944892805269_2_alg».proof.Proof.FinalI
import proofs.«153703_j944892805269_2_alg».proof.Proof.TileValueI
import proofs.«153703_j944892805269_2_alg».proof.Proof.RefLinf
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- Both idealized programs end with the specification's array of the reference's patch matrix of x, the weight and the
    bias: the kernel by its run read block by block, the reference by its operations read at an index. -/
theorem algebraic : Cert.algebraic_KernelIdeal_ReferenceIdeal := by
  intro m ρ m' ρ' _ hagree
  refine ⟨fun c => Cert.Linf.out
      (Cert.ReferenceIdeal.Read.val_main_v20 (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.HandValue.run m ρ Cert.KernelIdeal.TileValue.tileVal_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_is_spec,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
